-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S2x64 : Shape := ⟨2, ![2, 64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64 : S_.BroadcastsInDim S2x64 (![] : Fin 0 → Fin S2x64.rank)
  reducesTo_S2x64_S_d0_1 : S2x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S2x64 .f32) (main_arg7 : FVec F S2x64 .f32) (main_arg8 : FVec F S2x64 .f32) (main_arg9 : FVec F S64x32 .f32) (main_arg10 : FVec F S32 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S50000 32) (main_arg3 : FVec F S3x64x64 .f32) (main_arg4 : FVec F S3x64 .f32) (main_arg5 : FVec F S2x64 .f32) (main_arg6 : FVec F S2x64 .f32) (main_arg7 : FVec F S2x64 .f32) (main_arg8 : FVec F S2x64 .f32) (main_arg9 : FVec F S64x32 .f32) (main_arg10 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S2x64 .f32 := Host.absf main_arg5
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S2x64 : Shape := ⟨2, ![2, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64x64 : Shape := ⟨3, ![1, 64, 64]⟩
abbrev S64x64 : Shape := ⟨2, ![64, 64]⟩
abbrev S5000x64 : Shape := ⟨2, ![5000, 64]⟩
abbrev S800000x64 : Shape := ⟨2, ![800000, 64]⟩
abbrev S1x64 : Shape := ⟨2, ![1, 64]⟩
abbrev S64 : Shape := ⟨1, ![64]⟩
abbrev S50000x1 : Shape := ⟨2, ![50000, 1]⟩
abbrev S5000x1 : Shape := ⟨2, ![5000, 1]⟩
abbrev S512x64 : Shape := ⟨2, ![512, 64]⟩
abbrev S512 : Shape := ⟨1, ![512]⟩
abbrev S512x1 : Shape := ⟨2, ![512, 1]⟩
abbrev S1x32 : Shape := ⟨2, ![1, 32]⟩
abbrev S512x32 : Shape := ⟨2, ![512, 32]⟩

abbrev nBuf : Space → Nat
  | .hbm => 154
  | .vmem => 55
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x64x64, .f32⟩
  | 4 => ⟨S3x64, .f32⟩
  | 5 => ⟨S2x64, .f32⟩
  | 6 => ⟨S2x64, .f32⟩
  | 7 => ⟨S2x64, .f32⟩
  | 8 => ⟨S2x64, .f32⟩
  | 9 => ⟨S64x32, .f32⟩
  | 10 => ⟨S32, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S50000, .f32⟩
  | 45 => ⟨S1x64x64, .f32⟩
  | 46 => ⟨S64x64, .f32⟩
  | 47 => ⟨S50000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x1, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S64, .f32⟩
  | 72 => ⟨S1x64, .f32⟩
  | 73 => ⟨S64, .f32⟩
  | 74 => ⟨S50000x1, .f32⟩
  | 75 => ⟨S1x64, .f32⟩
  | 76 => ⟨S1x64, .f32⟩
  | 77 => ⟨S1x64, .f32⟩
  | 78 => ⟨S1x64, .f32⟩
  | 79 => ⟨S1x64, .f32⟩
  | 80 => ⟨S50000x64, .f32⟩
  | 81 => ⟨S1x64x64, .f32⟩
  | 82 => ⟨S64x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x1, .f32⟩
  | 94 => ⟨S800000x64, .f32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S64, .f32⟩
  | 108 => ⟨S1x64, .f32⟩
  | 109 => ⟨S64, .f32⟩
  | 110 => ⟨S50000x1, .f32⟩
  | 111 => ⟨S1x64, .f32⟩
  | 112 => ⟨S1x64, .f32⟩
  | 113 => ⟨S1x64, .f32⟩
  | 114 => ⟨S1x64, .f32⟩
  | 115 => ⟨S1x64, .f32⟩
  | 116 => ⟨S50000x64, .f32⟩
  | 117 => ⟨S1x64x64, .f32⟩
  | 118 => ⟨S64x64, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x64, .f32⟩
  | 1 => ⟨S800000x1, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S1x64, .f32⟩
  | 9 => ⟨S64, .f32⟩
  | 10 => ⟨S50000x1, .f32⟩
  | 11 => ⟨S1x64, .f32⟩
  | 12 => ⟨S50000x64, .f32⟩
  | 13 => ⟨S_, .f32⟩
  | 14 => ⟨S512x64, .f32⟩
  | 15 => ⟨S50000x1, .i32⟩
  | 16 => ⟨S512x64, .f32⟩
  | 17 => ⟨S_, .f32⟩
  | 18 => ⟨S50000, .f32⟩
  | 19 => ⟨S_, .f32⟩
  | 20 => ⟨S512, .f32⟩
  | 21 => ⟨S50000x1, .i32⟩
  | 22 => ⟨S512, .f32⟩
  | 23 => ⟨S512x1, .f32⟩
  | 24 => ⟨S1x32, .f32⟩
  | 25 => ⟨S512x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x1, .f32⟩
  | .local _ .vmem, ⟨46, _⟩ => ⟨S5000x1, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S512x64, .f32⟩
  | .local _ .vmem, ⟨51, _⟩ => ⟨S512x1, .f32⟩
  | .local _ .vmem, ⟨52, _⟩ => ⟨S64x32, .f32⟩
  | .local _ .vmem, ⟨53, _⟩ => ⟨S1x32, .f32⟩
  | .local _ .vmem, ⟨54, _⟩ => ⟨S512x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_8 : Ref sig .tc := ⟨.hbm, 84, rfl⟩
abbrev main_v63 : Ref sig .tc := ⟨.hbm, 85, rfl⟩
abbrev main_v64 : Ref sig .tc := ⟨.hbm, 86, rfl⟩
abbrev main_c_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_c_11 : Ref sig .tc := ⟨.hbm, 120, rfl⟩
abbrev main_v96 : Ref sig .tc := ⟨.hbm, 121, rfl⟩
abbrev main_v97 : Ref sig .tc := ⟨.hbm, 122, rfl⟩
abbrev main_c_12 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_13 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_14 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_15 : Ref sig .tc := ⟨.hbm, 145, rfl⟩
abbrev main_v117 : Ref sig .tc := ⟨.hbm, 146, rfl⟩
abbrev main_cst_16 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc6_stg0_0 : Ref sig .tc := ⟨.vmem, 50, rfl⟩
abbrev cc6_stg1_0 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49
abbrev cc6_sem0_0 : DmaSem sig := 50
abbrev cc6_sem1_0 : DmaSem sig := 51
abbrev cc6_sem2_0 : DmaSem sig := 52
abbrev cc6_sem3_0 : DmaSem sig := 53
abbrev cc6_sem4_0 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S512x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64_S1x64_0_0 : S3x64.Slices ![0, 0] S1x64
  shapeCasts_S1x64_S64 : S1x64.ShapeCasts S64
  slices_S2x64_S1x64_0_0 : S2x64.Slices ![0, 0] S1x64
  shapeCasts_S50000_S50000x1 : S50000.ShapeCasts S50000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  shapeCasts_S512_S512x1 : S512.ShapeCasts S512x1
  shapeCasts_S32_S1x32 : S32.ShapeCasts S1x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x32_S512x32_1_0_0_1_n_n_wf : DotDims.WF S512x64 S64x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S50000x64.size a
  hwx3_8 : ∀ i : grid3.Coords, EltTy.bits .f32 = 32 ∨ (Rect.block (s := S50000x64) S5000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x1.size a ≤ S512x1.size a
  hwx6_1 : ∀ i : grid6.Coords, EltTy.bits .f32 = 32 ∨ (Rect.block (s := S512x1) S512x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x32.size a ≤ S64x32.size a
  hwx6_2 : ∀ i : grid6.Coords, EltTy.bits .f32 = 32 ∨ (Rect.block (s := S64x32) S64x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S512x32.size a ≤ S512x32.size a
  hwx6_4 : ∀ i : grid6.Coords, EltTy.bits .f32 = 32 ∨ (Rect.block (s := S512x32) S512x32.size (cc6_transform_4 i) (hinb6_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v59) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v90) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v91) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v92) S5000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v92) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v108) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v111) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v112) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v113) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v116) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v121) S512x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S64x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v122) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v123) S512x32.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S2x64 : Shape := ⟨2, ![2, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S800000x64 : Shape := ⟨2, ![800000, 64]⟩
abbrev S50000x1 : Shape := ⟨2, ![50000, 1]⟩
abbrev S512x64 : Shape := ⟨2, ![512, 64]⟩
abbrev S512 : Shape := ⟨1, ![512]⟩
abbrev S512x1 : Shape := ⟨2, ![512, 1]⟩
abbrev S512x32 : Shape := ⟨2, ![512, 32]⟩
abbrev S1x32 : Shape := ⟨2, ![1, 32]⟩

abbrev nBuf : Space → Nat
  | .hbm => 203
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x64x64, .f32⟩
  | 4 => ⟨S3x64, .f32⟩
  | 5 => ⟨S2x64, .f32⟩
  | 6 => ⟨S2x64, .f32⟩
  | 7 => ⟨S2x64, .f32⟩
  | 8 => ⟨S2x64, .f32⟩
  | 9 => ⟨S64x32, .f32⟩
  | 10 => ⟨S32, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S50000, .f32⟩
  | 45 => ⟨S1x64x64, .f32⟩
  | 46 => ⟨S64x64, .f32⟩
  | 47 => ⟨S1x64, .f32⟩
  | 48 => ⟨S64, .f32⟩
  | 49 => ⟨S50000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S800000x1, .f32⟩
  | 60 => ⟨S800000x64, .f32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S50000x1, .f32⟩
  | 67 => ⟨S50000x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S1x64, .f32⟩
  | 84 => ⟨S64, .f32⟩
  | 85 => ⟨S_, .f32⟩
  | 86 => ⟨S64, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S1x64, .f32⟩
  | 93 => ⟨S64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S1x64x64, .f32⟩
  | 101 => ⟨S64x64, .f32⟩
  | 102 => ⟨S1x64, .f32⟩
  | 103 => ⟨S64, .f32⟩
  | 104 => ⟨S50000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S800000x1, .f32⟩
  | 115 => ⟨S800000x64, .f32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S50000x1, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x64, .f32⟩

abbrev hbmTy0_1 (i : Nat) : BufTy := match i % 128 with
  | 0 => ⟨S1x64, .f32⟩
  | 1 => ⟨S64, .f32⟩
  | 2 => ⟨S1x64, .f32⟩
  | 3 => ⟨S64, .f32⟩
  | 4 => ⟨S1x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S1x64, .f32⟩
  | 11 => ⟨S64, .f32⟩
  | 12 => ⟨S_, .f32⟩
  | 13 => ⟨S64, .f32⟩
  | 14 => ⟨S64, .f32⟩
  | 15 => ⟨S64, .f32⟩
  | 16 => ⟨S1x64, .f32⟩
  | 17 => ⟨S50000x64, .f32⟩
  | 18 => ⟨S50000x64, .f32⟩
  | 19 => ⟨S1x64, .f32⟩
  | 20 => ⟨S64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S1x64x64, .f32⟩
  | 28 => ⟨S64x64, .f32⟩
  | 29 => ⟨S1x64, .f32⟩
  | 30 => ⟨S64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x1, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x1, .f32⟩
  | 49 => ⟨S50000x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S512x64, .f32⟩
  | 57 => ⟨S50000x1, .i32⟩
  | 58 => ⟨S512x64, .f32⟩
  | 59 => ⟨S_, .f32⟩
  | 60 => ⟨S50000, .f32⟩
  | 61 => ⟨S_, .f32⟩
  | 62 => ⟨S512, .f32⟩
  | 63 => ⟨S50000x1, .i32⟩
  | 64 => ⟨S512, .f32⟩
  | 65 => ⟨S_, .f32⟩
  | 66 => ⟨S512, .f32⟩
  | 67 => ⟨S512, .f32⟩
  | 68 => ⟨S512x1, .f32⟩
  | 69 => ⟨S512x64, .f32⟩
  | 70 => ⟨S512x64, .f32⟩
  | 71 => ⟨S512x32, .f32⟩
  | 72 => ⟨S1x32, .f32⟩
  | 73 => ⟨S512x32, .f32⟩
  | 74 => ⟨S512x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call0_cst : Ref sig .tc := ⟨.hbm, 97, rfl⟩
abbrev main_call0_v0 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_9 : Ref sig .tc := ⟨.hbm, 105, rfl⟩
abbrev main_v81 : Ref sig .tc := ⟨.hbm, 106, rfl⟩
abbrev main_v82 : Ref sig .tc := ⟨.hbm, 107, rfl⟩
abbrev main_c_10 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_11 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_12 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_call1_cst : Ref sig .tc := ⟨.hbm, 152, rfl⟩
abbrev main_call1_v0 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_c_13 : Ref sig .tc := ⟨.hbm, 160, rfl⟩
abbrev main_v130 : Ref sig .tc := ⟨.hbm, 161, rfl⟩
abbrev main_v131 : Ref sig .tc := ⟨.hbm, 162, rfl⟩
abbrev main_c_14 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_15 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_16 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_17 : Ref sig .tc := ⟨.hbm, 187, rfl⟩
abbrev main_v153 : Ref sig .tc := ⟨.hbm, 188, rfl⟩
abbrev main_cst_18 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_19 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x64_S1x64_0_0 : S2x64.Slices ![0, 0] S1x64
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x32_S512x32_1_0_0_1_n_n_wf : DotDims.WF S512x64 S64x32 S512x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

class Facts : Prop extends Facts₀ where

variable [Facts]
-- ==== Proof.RunVal.lean ====
/-
  The idealised kernel's run with its result kept.

  The program is seven tiled regions among stretches of host operations. Every weakly fair execution terminates
  without a fault; at the end each device's result buffer holds the last boundary's contents of that buffer (the
  fold of the host stretches and of the regions' write-backs from the launch memory), and the eleven argument
  arrays are as launched. This is the launch theorem for a program of several regions applied to the same
  segments, proof data and thread states as the frame, with the final state read at the result buffer too.
-/
import proofs.«114617_j28595892256902_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and every argument array as launched. -/
theorem run : θ_run defs (onTc (τ := τ) (main (F := F))) ⟨m, fun _ => 0, ρ⟩ (fun r => ∀ c : Dev nD,
      r.2.mem ((c.tc : Thread nD τ).loc main_v123) = W14 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v123 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.RunVal

end
-- ==== Proof.Spec.lean ====
/-
  The graph network's dense stages, entry by entry, over the extended reals.

  Every node feature array has one row per node and one column per channel. A projection multiplies the rows by a
  weight matrix: entry (p, q) is the sum over k of x (p, k) · w (k, q). The combination adds to the aggregated
  neighbour messages the node's own projected row scaled by its self-loop weight, and the bias row. The normalisation
  subtracts the running mean, multiplies by the gain and by the reciprocal square root of the running variance plus
  epsilon, adds the offset, and keeps the positive part. The head divides each graph's summed rows by its node count
  (at least one), multiplies by the output weights and adds the output bias.
-/
import Idealize.ShloMosaic.PureOps.Ideal
import Idealize.ShloMosaic.Lib.ValueIdx

noncomputable section

namespace Cert.Gcn

open Idealize.ShloMosaic Idealize.ShloMosaic.ValueIdx

/-- The extended reals the idealised programs compute over. -/
abbrev R := Ideal .f32

/-- The first coordinate of a rank-2 index. -/
def row {a b : ℕ} (i : (⟨2, ![a, b]⟩ : Shape).Idx) : Fin a := ⟨(i 0).val, (i 0).isLt⟩
/-- The second coordinate of a rank-2 index. -/
def col {a b : ℕ} (i : (⟨2, ![a, b]⟩ : Shape).Idx) : Fin b := ⟨(i 1).val, (i 1).isLt⟩

theorem row_ix2 {a b : ℕ} (p : Fin a) (q : Fin b) : row (ix2 p q) = p := rfl
theorem col_ix2 {a b : ℕ} (p : Fin a) (q : Fin b) : col (ix2 p q) = q := rfl

/-- The batch-norm epsilon, the literal both programs carry. -/
def eps : R := Ideal.ofBits .f32 0x3727C5AC#32
/-- The literal zero both programs carry. -/
def zero : R := Ideal.ofBits .f32 0x00000000#32
/-- The literal one both programs carry. -/
def one : R := Ideal.ofBits .f32 0x3F800000#32

/-- Rows times a weight matrix: entry (p, q) is the sum over k of x (p, k) · w (k, q). -/
def proj {n k d : ℕ} (x : (⟨2, ![n, k]⟩ : Shape).Idx → R) (w : (⟨2, ![k, d]⟩ : Shape).Idx → R) :
    (⟨2, ![n, d]⟩ : Shape).Idx → R :=
  fun i => ∑ j : Fin k, x (ix2 (row i) j) * w (ix2 j (col i))

/-- Aggregated messages plus the node's own row scaled by its self-loop weight, plus the bias row. -/
def combine {n d : ℕ} (agg h : (⟨2, ![n, d]⟩ : Shape).Idx → R) (ns : (⟨2, ![n, 1]⟩ : Shape).Idx → R)
    (b : (⟨2, ![1, d]⟩ : Shape).Idx → R) : (⟨2, ![n, d]⟩ : Shape).Idx → R :=
  fun i => agg i + h i * ns (ix2 (row i) (0 : Fin 1)) + b (ix2 (0 : Fin 1) (col i))

/-- Inference-mode batch normalisation per channel, then the positive part. -/
def bnRelu {n d : ℕ} (y : (⟨2, ![n, d]⟩ : Shape).Idx → R) (γ β μ var : (⟨2, ![1, d]⟩ : Shape).Idx → R) :
    (⟨2, ![n, d]⟩ : Shape).Idx → R :=
  fun i => max (γ (ix2 (0 : Fin 1) (col i)) * (y i - μ (ix2 (0 : Fin 1) (col i)))
      * Ideal.rsqrt (var (ix2 (0 : Fin 1) (col i)) + eps) + β (ix2 (0 : Fin 1) (col i))) zero

/-- Mean pooling and the linear head: each graph's summed rows over its node count (at least one), times the output
    weights, plus the output bias. -/
def head {g d o : ℕ} (sums : (⟨2, ![g, d]⟩ : Shape).Idx → R) (counts : (⟨2, ![g, 1]⟩ : Shape).Idx → R)
    (w : (⟨2, ![d, o]⟩ : Shape).Idx → R) (b : (⟨2, ![1, o]⟩ : Shape).Idx → R) : (⟨2, ![g, o]⟩ : Shape).Idx → R :=
  fun i => (∑ j : Fin d, Ideal.div (sums (ix2 (row i) j)) (max (counts (ix2 (row i) (0 : Fin 1))) one) * w (ix2 j (col i)))
      + b (ix2 (0 : Fin 1) (col i))

end Cert.Gcn

end
-- ==== Proof.Carry.lean ====
/-
  Buffers that a stretch of host operations or a tiled region does not write keep their contents.

  The program's buffer contents are a fold from the launch memory: each stretch of host operations rewrites its own
  result buffers and each region rewrites its output array. A buffer no operation of a stretch writes, and that is
  not the region's output, is carried unchanged across the boundary. Here the buffers later stages read again — the
  edge endpoints, the edge and self-loop weights, the parameter arrays, each region's output on its way into the
  next region — are carried to the boundaries where they are read.
-/
import proofs.«114617_j28595892256902_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Across a stretch of host operations none of which writes the buffer. -/
macro "hkeep " ops:ident : tactic => `(tactic| (
  refine (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_))

set_option hygiene false in
/-- Across a region none of whose arrays is the buffer. -/
macro "rkeep " l:ident : tactic => `(tactic| (refine ($l m ρ c _ (by decide)).trans ?_))

set_option hygiene false in
macro "layerA" : tactic => `(tactic| (rkeep W6_of_ne; hkeep hostOps2; rkeep W4_of_ne; hkeep hostOps1))
set_option hygiene false in
macro "layerB" : tactic => `(tactic| (rkeep W10_of_ne; hkeep hostOps4; rkeep W8_of_ne; hkeep hostOps3))

/-! ## The edge endpoints and the two weight vectors, computed before the first region -/

theorem v1_2 : W2 m ρ c (Proc.devRef .tc main_v1) = W1 m ρ c (Proc.devRef .tc main_v1) := by rkeep W2_of_ne; rfl
theorem v3_2 : W2 m ρ c (Proc.devRef .tc main_v3) = W1 m ρ c (Proc.devRef .tc main_v3) := by rkeep W2_of_ne; rfl
theorem v25_2 : W2 m ρ c (Proc.devRef .tc main_v25) = W1 m ρ c (Proc.devRef .tc main_v25) := by rkeep W2_of_ne; rfl
theorem v26_2 : W2 m ρ c (Proc.devRef .tc main_v26) = W1 m ρ c (Proc.devRef .tc main_v26) := by rkeep W2_of_ne; rfl
theorem v1_6 : W6 m ρ c (Proc.devRef .tc main_v1) = W2 m ρ c (Proc.devRef .tc main_v1) := by layerA; rfl
theorem v3_6 : W6 m ρ c (Proc.devRef .tc main_v3) = W2 m ρ c (Proc.devRef .tc main_v3) := by layerA; rfl
theorem v25_6 : W6 m ρ c (Proc.devRef .tc main_v25) = W2 m ρ c (Proc.devRef .tc main_v25) := by layerA; rfl
theorem v26_6 : W6 m ρ c (Proc.devRef .tc main_v26) = W2 m ρ c (Proc.devRef .tc main_v26) := by layerA; rfl
theorem v1_10 : W10 m ρ c (Proc.devRef .tc main_v1) = W6 m ρ c (Proc.devRef .tc main_v1) := by layerB; rfl
theorem v3_10 : W10 m ρ c (Proc.devRef .tc main_v3) = W6 m ρ c (Proc.devRef .tc main_v3) := by layerB; rfl
theorem v25_10 : W10 m ρ c (Proc.devRef .tc main_v25) = W6 m ρ c (Proc.devRef .tc main_v25) := by layerB; rfl
theorem v26_10 : W10 m ρ c (Proc.devRef .tc main_v26) = W6 m ρ c (Proc.devRef .tc main_v26) := by layerB; rfl

/-! ## The parameter arrays, as launched, at the boundaries where they are read -/

theorem arg0_1 : W1 m ρ c (Proc.devRef .tc main_arg0) = m ((c : Thread nD τ).loc main_arg0) := by hkeep hostOps0; rfl
theorem arg3_4 : W4 m ρ c (Proc.devRef .tc main_arg3) = m ((c : Thread nD τ).loc main_arg3) := by
  rkeep W4_of_ne; hkeep hostOps1; rkeep W2_of_ne; hkeep hostOps0; rfl
theorem arg3_8 : W8 m ρ c (Proc.devRef .tc main_arg3) = m ((c : Thread nD τ).loc main_arg3) := by
  rkeep W8_of_ne; hkeep hostOps3; rkeep W6_of_ne; hkeep hostOps2; exact arg3_4 m ρ c
theorem arg4_2 : W2 m ρ c (Proc.devRef .tc main_arg4) = m ((c : Thread nD τ).loc main_arg4) := by rkeep W2_of_ne; hkeep hostOps0; rfl
theorem arg5_2 : W2 m ρ c (Proc.devRef .tc main_arg5) = m ((c : Thread nD τ).loc main_arg5) := by rkeep W2_of_ne; hkeep hostOps0; rfl
theorem arg6_2 : W2 m ρ c (Proc.devRef .tc main_arg6) = m ((c : Thread nD τ).loc main_arg6) := by rkeep W2_of_ne; hkeep hostOps0; rfl
theorem arg7_2 : W2 m ρ c (Proc.devRef .tc main_arg7) = m ((c : Thread nD τ).loc main_arg7) := by rkeep W2_of_ne; hkeep hostOps0; rfl
theorem arg8_2 : W2 m ρ c (Proc.devRef .tc main_arg8) = m ((c : Thread nD τ).loc main_arg8) := by rkeep W2_of_ne; hkeep hostOps0; rfl
theorem arg4_6 : W6 m ρ c (Proc.devRef .tc main_arg4) = m ((c : Thread nD τ).loc main_arg4) := by layerA; exact arg4_2 m ρ c
theorem arg5_6 : W6 m ρ c (Proc.devRef .tc main_arg5) = m ((c : Thread nD τ).loc main_arg5) := by layerA; exact arg5_2 m ρ c
theorem arg6_6 : W6 m ρ c (Proc.devRef .tc main_arg6) = m ((c : Thread nD τ).loc main_arg6) := by layerA; exact arg6_2 m ρ c
theorem arg7_6 : W6 m ρ c (Proc.devRef .tc main_arg7) = m ((c : Thread nD τ).loc main_arg7) := by layerA; exact arg7_2 m ρ c
theorem arg8_6 : W6 m ρ c (Proc.devRef .tc main_arg8) = m ((c : Thread nD τ).loc main_arg8) := by layerA; exact arg8_2 m ρ c
theorem arg4_10 : W10 m ρ c (Proc.devRef .tc main_arg4) = m ((c : Thread nD τ).loc main_arg4) := by layerB; exact arg4_6 m ρ c
theorem arg2_12 : W12 m ρ c (Proc.devRef .tc main_arg2) = m ((c : Thread nD τ).loc main_arg2) := by
  rkeep W12_of_ne; hkeep hostOps5; layerB; layerA; rkeep W2_of_ne; hkeep hostOps0; rfl
theorem arg10_12 : W12 m ρ c (Proc.devRef .tc main_arg10) = m ((c : Thread nD τ).loc main_arg10) := by
  rkeep W12_of_ne; hkeep hostOps5; layerB; layerA; rkeep W2_of_ne; hkeep hostOps0; rfl
theorem arg9_13 : W13 m ρ c (Proc.devRef .tc main_arg9) = m ((c : Thread nD τ).loc main_arg9) := by
  hkeep hostOps6; rkeep W12_of_ne; hkeep hostOps5; layerB; layerA; rkeep W2_of_ne; hkeep hostOps0; rfl

/-! ## Each region's output on its way into the next region -/

theorem v29_3 : W3 m ρ c (Proc.devRef .tc main_v29) = W2 m ρ c (Proc.devRef .tc main_v29) := by hkeep hostOps1; rfl
theorem v59_5 : W5 m ρ c (Proc.devRef .tc main_v59) = W4 m ρ c (Proc.devRef .tc main_v59) := by hkeep hostOps2; rfl
theorem v62_7 : W7 m ρ c (Proc.devRef .tc main_v62) = W6 m ρ c (Proc.devRef .tc main_v62) := by hkeep hostOps3; rfl
theorem v92_9 : W9 m ρ c (Proc.devRef .tc main_v92) = W8 m ρ c (Proc.devRef .tc main_v92) := by hkeep hostOps4; rfl
theorem v95_11 : W11 m ρ c (Proc.devRef .tc main_v95) = W10 m ρ c (Proc.devRef .tc main_v95) := by hkeep hostOps5; rfl

end Cert.KernelIdeal.Carry

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibColBroadcast.lean ====
/-
  A column broadcast along the second axis, and a vector read as a column, at an index given by coordinates.

  A column, an array of shape [a, 1], broadcast along the second axis to [a, b] repeats the column in every one of
  the b columns: at (r, j) it reads the column's entry r, whatever j is. A vector of a entries reshaped to a
  column [a, 1] keeps its entries in order: the column reads, at (r, u), entry r of the vector. (The companions of
  the row forms: [1, b] broadcast to [a, b], and a vector [b] read as a row [1, b].)
-/
import Idealize.ShloMosaic.Lib.Pipeline.Value
import Idealize.ShloMosaic.Lib.ValueIdx

noncomputable section

namespace Cert.ColBroadcast

open Idealize.ShloMosaic Idealize.ShloMosaic.ValueIdx

/-- A column `[a, 1]` broadcast along the second axis to `[a, b]` reads, at `(r, j)`, the column's entry `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A vector of a entries cast to a column [a, 1] reads, at (r, u), entry r: the two indices have the same
    row-major position. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by have := u.isLt; omega
    rw [Shape.rowMajor_val_two, Shape.rowMajor_val_one]
    show r.val = r.val * 1 + u.val
    rw [hu]; omega)

end Cert.ColBroadcast

end
-- ==== Proof.RefRead.lean ====
/-
  The reference's dense stages are the specification's.

  The host's matrix product, read entry by entry, is the sum over the contracted axis. A channel vector broadcast
  first to a row and then down the rows reads, at (p, q), its entry q; a node vector broadcast first to a column and
  then along the channels reads its entry p; a scalar broadcast reads the scalar. With these the reference's
  printed chains of pointwise operations are the specification's combine, normalise-and-rectify and head stages of
  their operands, the vectors entering as the one-row or one-column arrays the tiled program is handed.
-/
import proofs.«114617_j28595892256902_1_alg».proof.Proof.Gen.ReferenceIdeal.Read
import proofs.«114617_j28595892256902_1_alg».proof.Proof.Spec
import proofs.«114617_j28595892256902_1_alg».proof.Proof.LibDotRows
import proofs.«114617_j28595892256902_1_alg».proof.Proof.LibRowCast
import proofs.«114617_j28595892256902_1_alg».proof.Proof.LibColBroadcast
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.Read Cert.Gcn Cert.Hand
open Idealize.ShloMosaic Idealize.ShloMosaic.ValueIdx

/-! ## Broadcasts read at an index -/

/-- A channel vector broadcast to a row and then down the rows reads, at (p, q), its entry q. -/
theorem bc_chan {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ => rfl
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- A node vector broadcast to a column and then along the channels reads, at (p, q), its entry p. -/
theorem bc_node {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  refine (broadcastInDim_apply ![0, 1] h2 _ (ix2 p q) (ix2 p (0 : Fin 1)) fun ax => ?_).trans
    (broadcastInDim_apply ![0] h1 v (ix2 p (0 : Fin 1)) (ix1 p) fun ax => ?_)
  · match ax with
    | ⟨0, _⟩ =>
      show p.val = if a = 1 then 0 else p.val
      split
      · have := p.isLt; omega
      · rfl
    | ⟨1, _⟩ => rfl
  · match ax with
    | ⟨0, _⟩ =>
      show p.val = if a = 1 then 0 else p.val
      split
      · have := p.isLt; omega
      · rfl

/-- A scalar literal broadcast to any shape reads the literal everywhere. -/
theorem bc_lit {t : Shape} (w : BitVec 32) (h : (⟨0, ![]⟩ : Shape).BroadcastsInDim t ![]) (j : t.Idx) :
    broadcastInDim t ![] h (constant (F := Ideal) ⟨0, ![]⟩ .f32 w) j = Ideal.ofBits .f32 w := rfl

/-! ## The matrix products -/

/-- The node features times a layer's weights: the host product is the specification's projection. -/
theorem dot_eq_proj (l : FVec Ideal S50000x64 .f32) (r : FVec Ideal S64x64 .f32) :
    Host.dotGeneral (F := Ideal) dot_S50000x64_S64x64_S50000x64_1_0_0_1_n_n none l r
      = proj (n := 50000) (k := 64) (d := 64) l r := by
  funext i
  obtain ⟨p, q, rfl⟩ : ∃ (p : Fin 50000) (q : Fin 64), i = ix2 p q := ⟨i 0, i 1, eq_ix2 i⟩
  simp only [Host.dotGeneral]
  rw [Ideal.dotGeneral_apply]
  unfold proj
  rw [row_ix2, col_ix2]
  dot_rows dot_S50000x64_S64x64_S50000x64_1_0_0_1_n_n S50000x64 S64x64 64

/-! ## The combination and the normalisation -/

/-- The reference's chain from the aggregated messages to the rectified, normalised features is the
    specification's combine followed by normalise-and-rectify, the vectors entering as one-column and one-row arrays. -/
theorem chain_eq_bnRelu (agg h : FVec Ideal S50000x64 .f32) (ns : FVec Ideal S50000 .f32)
    (b γ β μ var : FVec Ideal S64 .f32)
    (hc : S50000.ShapeCasts S50000x1) (hr : S64.ShapeCasts S1x64) :
    maximumf (addf (mulf (mulf (broadcastInDim S50000x64 ![0, 1] bcast_S1x64_S50000x64_0_1 (broadcastInDim S1x64 ![1] bcast_S64_S1x64_1 γ))
        (subf (addf (addf agg (mulf h (broadcastInDim S50000x64 ![0, 1] bcast_S50000x1_S50000x64_0_1 (broadcastInDim S50000x1 ![0] bcast_S50000_S50000x1_0 ns))))
            (broadcastInDim S50000x64 ![0, 1] bcast_S1x64_S50000x64_0_1 (broadcastInDim S1x64 ![1] bcast_S64_S1x64_1 b)))
          (broadcastInDim S50000x64 ![0, 1] bcast_S1x64_S50000x64_0_1 (broadcastInDim S1x64 ![1] bcast_S64_S1x64_1 μ))))
        (broadcastInDim S50000x64 ![0, 1] bcast_S1x64_S50000x64_0_1 (broadcastInDim S1x64 ![1] bcast_S64_S1x64_1
          (Host.rsqrt (addf var (broadcastInDim S64 ![] bcast_S_S64 (constant S_ .f32 0x3727C5AC#32)))))))
        (broadcastInDim S50000x64 ![0, 1] bcast_S1x64_S50000x64_0_1 (broadcastInDim S1x64 ![1] bcast_S64_S1x64_1 β)))
      (broadcastInDim S50000x64 ![] bcast_S_S50000x64 (constant S_ .f32 0x00000000#32))
    = bnRelu (n := 50000) (d := 64) (combine (n := 50000) (d := 64) agg h (shapeCast S50000x1 ns hc) (shapeCast S1x64 b hr))
        (shapeCast S1x64 γ hr) (shapeCast S1x64 β hr) (shapeCast S1x64 μ hr) (shapeCast S1x64 var hr) := by
  funext i
  obtain ⟨p, q, rfl⟩ : ∃ (p : Fin 50000) (q : Fin 64), i = ix2 p q := ⟨i 0, i 1, eq_ix2 i⟩
  simp only [maximumf_apply, addf_apply, mulf_apply, subf_apply]
  rw [bc_chan γ, bc_chan b, bc_chan μ, bc_chan β, bc_chan (Host.rsqrt _), bc_node ns, bc_lit]
  unfold bnRelu combine
  rw [row_ix2, col_ix2]
  simp only [Cert.RowCast.shapeCast_row_apply, Cert.ColBroadcast.shapeCast_col_apply]
  rfl

/-- The last layer's chain, with no normalisation: the specification's combine. -/
theorem chain_eq_combine (agg h : FVec Ideal S50000x64 .f32) (ns : FVec Ideal S50000 .f32)
    (b : FVec Ideal S64 .f32) (hc : S50000.ShapeCasts S50000x1) (hr : S64.ShapeCasts S1x64) :
    addf (addf agg (mulf h (broadcastInDim S50000x64 ![0, 1] bcast_S50000x1_S50000x64_0_1 (broadcastInDim S50000x1 ![0] bcast_S50000_S50000x1_0 ns))))
        (broadcastInDim S50000x64 ![0, 1] bcast_S1x64_S50000x64_0_1 (broadcastInDim S1x64 ![1] bcast_S64_S1x64_1 b))
    = combine (n := 50000) (d := 64) agg h (shapeCast S50000x1 ns hc) (shapeCast S1x64 b hr) := by
  funext i
  obtain ⟨p, q, rfl⟩ : ∃ (p : Fin 50000) (q : Fin 64), i = ix2 p q := ⟨i 0, i 1, eq_ix2 i⟩
  simp only [addf_apply, mulf_apply]
  rw [bc_chan b, bc_node ns]
  unfold combine
  rw [row_ix2, col_ix2]
  simp only [Cert.RowCast.shapeCast_row_apply, Cert.ColBroadcast.shapeCast_col_apply]

/-! ## The head -/

/-- The pooled features times the output weights, entry by entry. -/
theorem dot_head_apply (l : FVec Ideal S512x64 .f32) (r : FVec Ideal S64x32 .f32)
    (p : Fin 512) (q : Fin 32) :
    Host.dotGeneral (F := Ideal) dot_S512x64_S64x32_S512x32_1_0_0_1_n_n none l r (ix2 p q)
      = ∑ k : Fin 64, l (ix2 p k) * r (ix2 k q) := by
  simp only [Host.dotGeneral]
  rw [Ideal.dotGeneral_apply]
  dot_rows dot_S512x64_S64x32_S512x32_1_0_0_1_n_n S512x64 S64x32 64

/-- Mean pooling and the output layer: the reference's quotient, product and bias are the specification's head. -/
theorem chain_eq_head (sums : FVec Ideal S512x64 .f32) (counts : FVec Ideal S512 .f32)
    (w : FVec Ideal S64x32 .f32) (b : FVec Ideal S32 .f32)
    (hc : S512.ShapeCasts S512x1) (hr : S32.ShapeCasts S1x32) :
    addf (Host.dotGeneral (F := Ideal) dot_S512x64_S64x32_S512x32_1_0_0_1_n_n none
          (Host.divf sums (broadcastInDim S512x64 ![0, 1] bcast_S512x1_S512x64_0_1 (broadcastInDim S512x1 ![0] bcast_S512_S512x1_0
            (maximumf counts (broadcastInDim S512 ![] bcast_S_S512 (constant S_ .f32 0x3F800000#32)))))) w)
        (broadcastInDim S512x32 ![0, 1] bcast_S1x32_S512x32_0_1 (broadcastInDim S1x32 ![1] bcast_S32_S1x32_1 b))
    = head (g := 512) (d := 64) (o := 32) sums (shapeCast S512x1 counts hc) w (shapeCast S1x32 b hr) := by
  funext i
  obtain ⟨p, q, rfl⟩ : ∃ (p : Fin 512) (q : Fin 32), i = ix2 p q := ⟨i 0, i 1, eq_ix2 i⟩
  simp only [addf_apply]
  rw [bc_chan b, dot_head_apply]
  unfold head
  rw [row_ix2, col_ix2, Cert.RowCast.shapeCast_row_apply, Cert.ColBroadcast.shapeCast_col_apply]
  refine congrArg (· + b (ix1 q)) (Finset.sum_congr rfl fun k _ => ?_)
  show Ideal.div (sums (ix2 p k)) (broadcastInDim S512x64 ![0, 1] bcast_S512x1_S512x64_0_1 (broadcastInDim S512x1 ![0] bcast_S512_S512x1_0
            (maximumf counts (broadcastInDim S512 ![] bcast_S_S512 (constant S_ .f32 0x3F800000#32)))) (ix2 p k)) * w (ix2 k q) = _
  rw [bc_node]
  rfl

end Cert.ReferenceIdeal.RefRead

end
-- ==== Proof.Region0.lean ====
/-
  The projection stage's output array, entry by entry.

  The stage cuts the node-feature array into ten blocks of 5000 rows; at each block it multiplies the block's rows
  by the whole 64 × 64 weight matrix and writes the product back as the matching block of rows of the output array.
  Entry (p, q) of a block's product is the sum over k of the block's (p, k) times the weights' (k, q) (the format
  changes in between are the identity over the extended reals), and row p of block t is row 5000 t + p of the
  array, so the output array is, at every entry, the whole-array projection of the two input arrays: row r lies
  in the block of point r / 5000.
-/
import proofs.«114617_j28595892256902_1_alg».proof.Proof.Gen.KernelIdeal.Frame
import proofs.«114617_j28595892256902_1_alg».proof.Proof.Spec
import proofs.«114617_j28595892256902_1_alg».proof.Proof.LibDotRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx Idealize.SL.Sem
open Idealize.ShloMosaic.TcCoe Cert.Hand

variable (V : (c : Dev nD) → (b : Ref sig .tc) → Buf (Elt Ideal) ((c : Thread nD τ).loc b))

theorem hz0 : (![0, 0] : Fin 2 → Nat) = fun _ => 0 := funext fun a => by fin_cases a <;> rfl

/-- The projection's payload at an entry: row p of the block times column q of the weights. -/
theorem pay0_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  simp only [matmul, shapeCast_self]
  rw [Ideal.matmul_constant_zero_apply]
  dot_rows dot_S5000x64_S64x64_S5000x64_1_0_0_1_n_n S5000x64 S64x64 64
  rfl

/-- The windows' block indices at every grid point: the row-blocked windows sit at block row t, the weights at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows window's block at point t, entry (p, k): the array's entry (5000 t + p, k). -/
theorem blk0_0_apply (c : Dev nD) (t : Fin cfg0.N) (p : Fin 5000) (k : Fin 64) (r : Fin 50000) (hr : r.val = t.val * 5000 + p.val) :
    (iblk0 V c 0 t : Vec Ideal S5000x64 .f32) (ix2 p k) = (V c main_arg0 : S50000x64.Idx → Ideal .f32) (ix2 r k) := by
  obtain ⟨e0, e1, -, -, -, -⟩ := idx_facts0 t
  unfold iblk0
  rw [View.read_apply]
  show V c main_arg0 (((cfg0.win 0).blk t).view.emb (ix2 p k)) = V c main_arg0 (ix2 r k)
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weights window's block at any point is the whole weight matrix. -/
theorem blk0_1_apply (c : Dev nD) (t : Fin cfg0.N) (k : Fin 64) (q : Fin 64) :
    (iblk0 V c 1 t : Vec Ideal S64x64 .f32) (ix2 k q) = (V c main_v28 : S64x64.Idx → Ideal .f32) (ix2 k q) := by
  obtain ⟨-, -, e2, e3, -, -⟩ := idx_facts0 t
  unfold iblk0
  rw [View.read_apply]
  show V c main_v28 (((cfg0.win 1).blk t).view.emb (ix2 k q)) = V c main_v28 (ix2 k q)
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- Block t of the output at a block entry is the projection at the entry's place in the array. -/
theorem out0_apply (c : Dev nD) (t : Fin cfg0.N) (j : S5000x64.Idx) :
    k0_pay1 (F := Ideal) (iblk0 V c 0 t) (iblk0 V c 1 t) j
      = Cert.Gcn.proj (n := 50000) (k := 64) (d := 64) (V c main_arg0) (V c main_v28) (((cfg0.win 2).blk t).view.emb j) := by
  obtain ⟨p, q, rfl⟩ : ∃ (p : Fin 5000) (q : Fin 64), j = ix2 p q := ⟨j 0, j 1, eq_ix2 j⟩
  have hN : grid0.N = 10 := N_0
  have ht : t.val < 10 := by have h : t.val < grid0.N := t.isLt; omega
  obtain ⟨-, -, -, -, e4, e5⟩ := idx_facts0 t
  have hr : t.val * 5000 + p.val < 50000 := by have := p.isLt; omega
  have he : ((cfg0.win 2).blk t).view.emb (ix2 p q) = (ix2 (⟨t.val * 5000 + p.val, hr⟩ : Fin 50000) q : S50000x64.Idx) := by
    funext a
    apply Fin.ext
    match a with
    | ⟨0, _⟩ => show win0_2.index t (0 : Fin 2) * 5000 + 1 * p.val = t.val * 5000 + p.val; rw [e4]; omega
    | ⟨1, _⟩ => show win0_2.index t (1 : Fin 2) * 64 + 1 * q.val = q.val; rw [e5]; omega
  rw [he, pay0_apply]
  unfold Cert.Gcn.proj
  rw [Cert.Gcn.row_ix2, Cert.Gcn.col_ix2]
  refine Finset.sum_congr rfl fun k _ => ?_
  rw [blk0_0_apply V c t p k ⟨t.val * 5000 + p.val, hr⟩ rfl, blk0_1_apply V c t k q]

/-- What point t writes back is block t of the projection of the two input arrays. -/
theorem flushed0_eq (c : Dev nD) (t : Fin cfg0.N) :
    (dat0 (F := Ideal) V c).flushed 2 t = ((cfg0.win 2).blk t).view.read (Elt Ideal)
      (Cert.Gcn.proj (n := 50000) (k := 64) (d := 64) (V c main_arg0) (V c main_v28)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x64) hz0]
  funext j
  rw [View.read_apply]
  exact out0_apply V c t j

/-- An index of the array is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Row r of the array is in the block of point r / 5000. -/
theorem cover0 (i : S50000x64.Idx) : ∃ t : Fin cfg0.N, (cfg0.win 2).flush t = true ∧ i ∈ ((cfg0.win 2).blk t).view.set := by
  have hN : grid0.N = 10 := N_0
  have hi0 : (i 0).val < 50000 := (i 0).isLt
  have hi1 : (i 1).val < 64 := (i 1).isLt
  have hlt : (i 0).val / 5000 < grid0.N := by omega
  obtain ⟨-, -, -, -, e4, e5⟩ := idx_facts0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    rw [e5]; omega

/-- The projection region's output array after all its write-backs: the projection of its two input arrays. -/
theorem region0 (c : Dev nD) : (dat0 (F := Ideal) V c).arrAt 2 cfg0.N
    = Cert.Gcn.proj (n := 50000) (k := 64) (d := 64) (V c main_arg0) (V c main_v28) :=
  (dat0 (F := Ideal) V c).arrAt_eq_of_cover 2 _ (fun t _ => flushed0_eq V c t) cover0

end Cert.KernelIdeal.RegionVal

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.Region1.lean ====
/-
  The combination stage with normalisation, from blocks to the whole array.

  The stage runs over ten grid points. Point t reads rows 5000 t … 5000 t + 4999 of the aggregated messages, of the
  nodes' own projected rows and of the self-loop weights, and the whole of five per-channel rows — bias, gain,
  offset, running mean, running variance — and writes the same rows of the output. Entry by entry the written block
  is the normalised combination of the eight input arrays read at those rows, with the positive part kept, and the
  ten blocks tile the 50000 rows; so after the last write the output array is that function of the input arrays.
-/
import proofs.«114617_j28595892256902_1_alg».proof.Proof.Gen.KernelIdeal.Frame
import proofs.«114617_j28595892256902_1_alg».proof.Proof.Spec
import proofs.«114617_j28595892256902_1_alg».proof.Proof.LibRowBroadcast
import proofs.«114617_j28595892256902_1_alg».proof.Proof.LibColBroadcast
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The two zero offsets, as the constant function. -/
theorem hz1 : (![0, 0] : Fin 2 → Nat) = fun _ => 0 := funext fun a => by fin_cases a <;> rfl

/-! ## The body's value at an entry -/

/-- A reciprocal square root taken entry by entry, read at an entry. -/
theorem rsqrt_apply_1 {s : Shape} {φ : FTy} (a : FVec Ideal s φ) (i : s.Idx) : rsqrt a i = Ideal.rsqrt (a i) := rfl

/-- Entry (p, q) of what the body stores. The combination — the aggregated entry, plus the node's own entry times
    the node's self-loop weight, plus the bias entry — has the channel's mean subtracted, is multiplied by the
    channel's gain and by the reciprocal square root of the channel's variance plus epsilon, has the channel's offset
    added, and the positive part is kept. The column of weights is broadcast along the channels, every row of
    per-channel numbers down the nodes. -/
theorem pay1_apply (x0 x1 : Vec Ideal S5000x64 .f32) (x2 : Vec Ideal S5000x1 .f32) (x3 g mu va be : Vec Ideal S1x64 .f32)
    (p : Fin 5000) (q : Fin 64) :
    k1_pay1 (F := Ideal) x0 x1 x2 x3 g mu va be (ix2 p q)
      = max (g (ix2 (0 : Fin 1) q)
            * (x0 (ix2 p q) + x1 (ix2 p q) * x2 (ix2 p (0 : Fin 1)) + x3 (ix2 (0 : Fin 1) q) - mu (ix2 (0 : Fin 1) q))
            * Ideal.rsqrt (va (ix2 (0 : Fin 1) q) + Cert.Gcn.eps) + be (ix2 (0 : Fin 1) q)) Cert.Gcn.zero := by
  unfold k1_pay1
  simp only [shapeCast_self, maximumf_apply, addf_apply, mulf_apply, subf_apply, broadcast_apply, rsqrt_apply_1,
    Cert.ColBroadcast.broadcastTo_a1_ab_apply, Cert.RowBroadcast.broadcastTo_1b_ab_apply]
  rfl

/-- The combination read at an entry given by its coordinates. -/
theorem combine_ix2_1 {n d : ℕ} (agg h : (⟨2, ![n, d]⟩ : Shape).Idx → Cert.Gcn.R) (ns : (⟨2, ![n, 1]⟩ : Shape).Idx → Cert.Gcn.R)
    (b : (⟨2, ![1, d]⟩ : Shape).Idx → Cert.Gcn.R) (P : Fin n) (q : Fin d) :
    Cert.Gcn.combine agg h ns b (ix2 P q) = agg (ix2 P q) + h (ix2 P q) * ns (ix2 P (0 : Fin 1)) + b (ix2 (0 : Fin 1) q) := rfl

/-- The normalisation with the positive part, read at an entry given by its coordinates. -/
theorem bnRelu_ix2_1 {n d : ℕ} (y : (⟨2, ![n, d]⟩ : Shape).Idx → Cert.Gcn.R) (γ β μ var : (⟨2, ![1, d]⟩ : Shape).Idx → Cert.Gcn.R)
    (P : Fin n) (q : Fin d) :
    Cert.Gcn.bnRelu y γ β μ var (ix2 P q)
      = max (γ (ix2 (0 : Fin 1) q) * (y (ix2 P q) - μ (ix2 (0 : Fin 1) q))
          * Ideal.rsqrt (var (ix2 (0 : Fin 1) q) + Cert.Gcn.eps) + β (ix2 (0 : Fin 1) q)) Cert.Gcn.zero := rfl

/-! ## The block indices over the grid -/

/-- At grid point t the row-blocked windows sit at block (t, 0), the five per-channel rows at block (0, 0). -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = 0 ∧ win1_6.index t (1 : Fin 2) = 0
  ∧ win1_7.index t (0 : Fin 2) = 0 ∧ win1_7.index t (1 : Fin 2) = 0
  ∧ win1_8.index t (0 : Fin 2) = t.val ∧ win1_8.index t (1 : Fin 2) = 0 :=
  (by decide +kernel : ∀ t : Fin grid1.N, _)

/-! ## Each input block as entries of its array -/

/-- Window 0's block at a grid point, read at block coordinates x, is the array at the index k whose first
    coordinate is the point's block offset plus x's and whose second is x's. -/
theorem blk1_0_apply (c : Dev nD) (t : Fin cfg1.N) (x : S5000x64.Idx) (k : S50000x64.Idx)
    (hk0 : (k 0).val = t.val * 5000 + (x 0).val) (hk1 : (k 1).val = (x 1).val) :
    (iblk1 V c 0 t : Vec Ideal S5000x64 .f32) x = (V c main_v42 : S50000x64.Idx → Elt Ideal .f32) k := by
  obtain ⟨h0, h1, -, -, -, -, -, -, -, -, -, -, -, -, -, -, -, -⟩ := idx1 t
  unfold iblk1
  rw [View.read_apply]
  show V c main_v42 _ = V c main_v42 _
  congr 1
  funext a
  apply Fin.ext
  match a with
  | ⟨0, _⟩ => show win1_0.index t 0 * 5000 + 1 * (x 0).val = (k 0).val; rw [h0, hk0]; omega
  | ⟨1, _⟩ => show win1_0.index t 1 * 64 + 1 * (x 1).val = (k 1).val; rw [h1, hk1]; omega

/-- Window 1's block at a grid point, read at block coordinates x, is the array at the index k whose first
    coordinate is the point's block offset plus x's and whose second is x's. -/
theorem blk1_1_apply (c : Dev nD) (t : Fin cfg1.N) (x : S5000x64.Idx) (k : S50000x64.Idx)
    (hk0 : (k 0).val = t.val * 5000 + (x 0).val) (hk1 : (k 1).val = (x 1).val) :
    (iblk1 V c 1 t : Vec Ideal S5000x64 .f32) x = (V c main_v29 : S50000x64.Idx → Elt Ideal .f32) k := by
  obtain ⟨-, -, h0, h1, -, -, -, -, -, -, -, -, -, -, -, -, -, -⟩ := idx1 t
  unfold iblk1
  rw [View.read_apply]
  show V c main_v29 _ = V c main_v29 _
  congr 1
  funext a
  apply Fin.ext
  match a with
  | ⟨0, _⟩ => show win1_1.index t 0 * 5000 + 1 * (x 0).val = (k 0).val; rw [h0, hk0]; omega
  | ⟨1, _⟩ => show win1_1.index t 1 * 64 + 1 * (x 1).val = (k 1).val; rw [h1, hk1]; omega

/-- Window 2's block at a grid point, read at block coordinates x, is the array at the index k whose first
    coordinate is the point's block offset plus x's and whose second is x's. -/
theorem blk1_2_apply (c : Dev nD) (t : Fin cfg1.N) (x : S5000x1.Idx) (k : S50000x1.Idx)
    (hk0 : (k 0).val = t.val * 5000 + (x 0).val) (hk1 : (k 1).val = (x 1).val) :
    (iblk1 V c 2 t : Vec Ideal S5000x1 .f32) x = (V c main_v53 : S50000x1.Idx → Elt Ideal .f32) k := by
  obtain ⟨-, -, -, -, h0, h1, -, -, -, -, -, -, -, -, -, -, -, -⟩ := idx1 t
  unfold iblk1
  rw [View.read_apply]
  show V c main_v53 _ = V c main_v53 _
  congr 1
  funext a
  apply Fin.ext
  match a with
  | ⟨0, _⟩ => show win1_2.index t 0 * 5000 + 1 * (x 0).val = (k 0).val; rw [h0, hk0]; omega
  | ⟨1, _⟩ => show win1_2.index t 1 * 1 + 1 * (x 1).val = (k 1).val; rw [h1, hk1]; omega

/-- Window 3's block at a grid point, read at block coordinates x, is the array at the index k whose first
    coordinate is x's and whose second is x's. -/
theorem blk1_3_apply (c : Dev nD) (t : Fin cfg1.N) (x : S1x64.Idx) (k : S1x64.Idx)
    (hk0 : (k 0).val = (x 0).val) (hk1 : (k 1).val = (x 1).val) :
    (iblk1 V c 3 t : Vec Ideal S1x64 .f32) x = (V c main_v54 : S1x64.Idx → Elt Ideal .f32) k := by
  obtain ⟨-, -, -, -, -, -, h0, h1, -, -, -, -, -, -, -, -, -, -⟩ := idx1 t
  unfold iblk1
  rw [View.read_apply]
  show V c main_v54 _ = V c main_v54 _
  congr 1
  funext a
  apply Fin.ext
  match a with
  | ⟨0, _⟩ => show win1_3.index t 0 * 1 + 1 * (x 0).val = (k 0).val; rw [h0, hk0]; omega
  | ⟨1, _⟩ => show win1_3.index t 1 * 64 + 1 * (x 1).val = (k 1).val; rw [h1, hk1]; omega

/-- Window 4's block at a grid point, read at block coordinates x, is the array at the index k whose first
    coordinate is x's and whose second is x's. -/
theorem blk1_4_apply (c : Dev nD) (t : Fin cfg1.N) (x : S1x64.Idx) (k : S1x64.Idx)
    (hk0 : (k 0).val = (x 0).val) (hk1 : (k 1).val = (x 1).val) :
    (iblk1 V c 4 t : Vec Ideal S1x64 .f32) x = (V c main_v55 : S1x64.Idx → Elt Ideal .f32) k := by
  obtain ⟨-, -, -, -, -, -, -, -, h0, h1, -, -, -, -, -, -, -, -⟩ := idx1 t
  unfold iblk1
  rw [View.read_apply]
  show V c main_v55 _ = V c main_v55 _
  congr 1
  funext a
  apply Fin.ext
  match a with
  | ⟨0, _⟩ => show win1_4.index t 0 * 1 + 1 * (x 0).val = (k 0).val; rw [h0, hk0]; omega
  | ⟨1, _⟩ => show win1_4.index t 1 * 64 + 1 * (x 1).val = (k 1).val; rw [h1, hk1]; omega

/-- Window 5's block at a grid point, read at block coordinates x, is the array at the index k whose first
    coordinate is x's and whose second is x's. -/
theorem blk1_5_apply (c : Dev nD) (t : Fin cfg1.N) (x : S1x64.Idx) (k : S1x64.Idx)
    (hk0 : (k 0).val = (x 0).val) (hk1 : (k 1).val = (x 1).val) :
    (iblk1 V c 5 t : Vec Ideal S1x64 .f32) x = (V c main_v56 : S1x64.Idx → Elt Ideal .f32) k := by
  obtain ⟨-, -, -, -, -, -, -, -, -, -, h0, h1, -, -, -, -, -, -⟩ := idx1 t
  unfold iblk1
  rw [View.read_apply]
  show V c main_v56 _ = V c main_v56 _
  congr 1
  funext a
  apply Fin.ext
  match a with
  | ⟨0, _⟩ => show win1_5.index t 0 * 1 + 1 * (x 0).val = (k 0).val; rw [h0, hk0]; omega
  | ⟨1, _⟩ => show win1_5.index t 1 * 64 + 1 * (x 1).val = (k 1).val; rw [h1, hk1]; omega

/-- Window 6's block at a grid point, read at block coordinates x, is the array at the index k whose first
    coordinate is x's and whose second is x's. -/
theorem blk1_6_apply (c : Dev nD) (t : Fin cfg1.N) (x : S1x64.Idx) (k : S1x64.Idx)
    (hk0 : (k 0).val = (x 0).val) (hk1 : (k 1).val = (x 1).val) :
    (iblk1 V c 6 t : Vec Ideal S1x64 .f32) x = (V c main_v57 : S1x64.Idx → Elt Ideal .f32) k := by
  obtain ⟨-, -, -, -, -, -, -, -, -, -, -, -, h0, h1, -, -, -, -⟩ := idx1 t
  unfold iblk1
  rw [View.read_apply]
  show V c main_v57 _ = V c main_v57 _
  congr 1
  funext a
  apply Fin.ext
  match a with
  | ⟨0, _⟩ => show win1_6.index t 0 * 1 + 1 * (x 0).val = (k 0).val; rw [h0, hk0]; omega
  | ⟨1, _⟩ => show win1_6.index t 1 * 64 + 1 * (x 1).val = (k 1).val; rw [h1, hk1]; omega

/-- Window 7's block at a grid point, read at block coordinates x, is the array at the index k whose first
    coordinate is x's and whose second is x's. -/
theorem blk1_7_apply (c : Dev nD) (t : Fin cfg1.N) (x : S1x64.Idx) (k : S1x64.Idx)
    (hk0 : (k 0).val = (x 0).val) (hk1 : (k 1).val = (x 1).val) :
    (iblk1 V c 7 t : Vec Ideal S1x64 .f32) x = (V c main_v58 : S1x64.Idx → Elt Ideal .f32) k := by
  obtain ⟨-, -, -, -, -, -, -, -, -, -, -, -, -, -, h0, h1, -, -⟩ := idx1 t
  unfold iblk1
  rw [View.read_apply]
  show V c main_v58 _ = V c main_v58 _
  congr 1
  funext a
  apply Fin.ext
  match a with
  | ⟨0, _⟩ => show win1_7.index t 0 * 1 + 1 * (x 0).val = (k 0).val; rw [h0, hk0]; omega
  | ⟨1, _⟩ => show win1_7.index t 1 * 64 + 1 * (x 1).val = (k 1).val; rw [h1, hk1]; omega

/-! ## What a grid point writes back -/

/-- Grid point t writes back block t of the normalised combination of the eight input arrays. -/
theorem flushed1_eq (c : Dev nD) (t : Fin cfg1.N) :
    (dat1 (F := Ideal) V c).flushed 8 t = ((cfg1.win 8).blk t).view.read (Elt Ideal)
      (Cert.Gcn.bnRelu (n := 50000) (d := 64) (Cert.Gcn.combine (n := 50000) (d := 64) (V c main_v42) (V c main_v29) (V c main_v53) (V c main_v54)) (V c main_v55) (V c main_v56) (V c main_v57) (V c main_v58)) := by
  show (cfg1.win 8).cut (grid1.coords t) ((dat1 V c).after 8 t) = _
  rw [after1_8]
  unfold out1_8
  rw [View.canon_unit_zero hz1]
  simp only [View.ld_unit_zero (S := S5000x64) hz1, View.ld_unit_zero (S := S5000x1) hz1, View.ld_unit_zero (S := S1x64) hz1]
  funext j
  obtain ⟨p, q, rfl⟩ : ∃ (p : Fin 5000) (q : Fin 64), j = ix2 p q := ⟨j 0, j 1, eq_ix2 j⟩
  have hN : grid1.N = 10 := N_1
  have ht : t.val < 10 := by have h := t.isLt; change t.val < grid1.N at h; omega
  obtain ⟨-, -, -, -, -, -, -, -, -, -, -, -, -, -, -, -, h0, h1⟩ := idx1 t
  have e : ((cfg1.win 8).blk t).view.emb (ix2 p q) = ix2 (⟨t.val * 5000 + p.val, by omega⟩ : Fin 50000) q := by
    funext a; apply Fin.ext
    match a with
    | ⟨0, _⟩ => show win1_8.index t 0 * 5000 + 1 * p.val = t.val * 5000 + p.val; rw [h0]; omega
    | ⟨1, _⟩ => show win1_8.index t 1 * 64 + 1 * q.val = q.val; rw [h1]; omega
  show k1_pay1 (F := Ideal) (iblk1 V c 0 t) (iblk1 V c 1 t) (iblk1 V c 2 t) (iblk1 V c 3 t) (iblk1 V c 4 t) (iblk1 V c 6 t) (iblk1 V c 7 t) (iblk1 V c 5 t) (ix2 p q)
    = Cert.Gcn.bnRelu (n := 50000) (d := 64) (Cert.Gcn.combine (n := 50000) (d := 64) (V c main_v42) (V c main_v29) (V c main_v53) (V c main_v54)) (V c main_v55) (V c main_v56) (V c main_v57) (V c main_v58)
        (((cfg1.win 8).blk t).view.emb (ix2 p q))
  rw [pay1_apply, e, bnRelu_ix2_1, combine_ix2_1]
  rw [blk1_0_apply V c t (ix2 p q) (ix2 (⟨t.val * 5000 + p.val, by omega⟩ : Fin 50000) q) rfl rfl,
    blk1_1_apply V c t (ix2 p q) (ix2 (⟨t.val * 5000 + p.val, by omega⟩ : Fin 50000) q) rfl rfl,
    blk1_2_apply V c t (ix2 p (0 : Fin 1)) (ix2 (⟨t.val * 5000 + p.val, by omega⟩ : Fin 50000) (0 : Fin 1)) rfl rfl,
    blk1_3_apply V c t (ix2 (0 : Fin 1) q) (ix2 (0 : Fin 1) q) rfl rfl,
    blk1_4_apply V c t (ix2 (0 : Fin 1) q) (ix2 (0 : Fin 1) q) rfl rfl,
    blk1_5_apply V c t (ix2 (0 : Fin 1) q) (ix2 (0 : Fin 1) q) rfl rfl,
    blk1_6_apply V c t (ix2 (0 : Fin 1) q) (ix2 (0 : Fin 1) q) rfl rfl,
    blk1_7_apply V c t (ix2 (0 : Fin 1) q) (ix2 (0 : Fin 1) q) rfl rfl]

/-! ## The blocks cover the array -/

/-- An entry of the array is in grid point t's block iff each coordinate is in the block's range on its axis. -/
theorem mem_blk1 (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v59).slice (win1_8.rect t)).set ↔ _
  rw [View.set_slice_whole, Rect.mem_set_unit]
  exact Iff.rfl

/-- Row r of the array lies in the block of grid point r / 5000, and every point writes its block back. -/
theorem cover1 (i : S50000x64.Idx) : ∃ t : Fin cfg1.N, (cfg1.win 8).flush t = true ∧ i ∈ ((cfg1.win 8).blk t).view.set := by
  have hN : grid1.N = 10 := N_1
  have hi0 : (i 0).val < 50000 := (i 0).isLt
  have hi1 : (i 1).val < 64 := (i 1).isLt
  have ht : (i 0).val / 5000 < cfg1.N := by show _ < grid1.N; omega
  refine ⟨⟨(i 0).val / 5000, ht⟩, flush1_8 _, ?_⟩
  rw [mem_blk1]
  obtain ⟨-, -, -, -, -, -, -, -, -, -, -, -, -, -, -, -, h0, h1⟩ := idx1 ⟨(i 0).val / 5000, ht⟩
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win1_8.index ⟨(i 0).val / 5000, ht⟩ (1 : Fin 2) * 64 ≤ (i 1).val ∧ (i 1).val < win1_8.index ⟨(i 0).val / 5000, ht⟩ (1 : Fin 2) * 64 + 64
    rw [h1]; omega

/-! ## The array after the stage -/

/-- After all ten write-backs the output array is the normalised combination of the stage's eight input arrays. -/
theorem region1 (c : Dev nD) : (dat1 (F := Ideal) V c).arrAt 8 cfg1.N = Cert.Gcn.bnRelu (n := 50000) (d := 64) (Cert.Gcn.combine (n := 50000) (d := 64) (V c main_v42) (V c main_v29) (V c main_v53) (V c main_v54)) (V c main_v55) (V c main_v56) (V c main_v57) (V c main_v58) :=
  (dat1 (F := Ideal) V c).arrAt_eq_of_cover 8 _ (fun t _ => flushed1_eq V c t) cover1

end Cert.KernelIdeal.RegionVal

end
-- ==== Proof.Region2.lean ====
/-
  The projection stage's output array, entry by entry.

  The stage cuts the node-feature array into ten blocks of 5000 rows; at each block it multiplies the block's rows
  by the whole 64 × 64 weight matrix and writes the product back as the matching block of rows of the output array.
  Entry (p, q) of a block's product is the sum over k of the block's (p, k) times the weights' (k, q) (the format
  changes in between are the identity over the extended reals), and row p of block t is row 5000 t + p of the
  array, so the output array is, at every entry, the whole-array projection of the two input arrays: row r lies
  in the block of point r / 5000.
-/
import proofs.«114617_j28595892256902_1_alg».proof.Proof.Gen.KernelIdeal.Frame
import proofs.«114617_j28595892256902_1_alg».proof.Proof.Spec
import proofs.«114617_j28595892256902_1_alg».proof.Proof.LibDotRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx Idealize.SL.Sem
open Idealize.ShloMosaic.TcCoe Cert.Hand

variable (V : (c : Dev nD) → (b : Ref sig .tc) → Buf (Elt Ideal) ((c : Thread nD τ).loc b))

theorem hz2 : (![0, 0] : Fin 2 → Nat) = fun _ => 0 := funext fun a => by fin_cases a <;> rfl

/-- The projection's payload at an entry: row p of the block times column q of the weights. -/
theorem pay2_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  simp only [matmul, shapeCast_self]
  rw [Ideal.matmul_constant_zero_apply]
  dot_rows dot_S5000x64_S64x64_S5000x64_1_0_0_1_n_n S5000x64 S64x64 64
  rfl

/-- The windows' block indices at every grid point: the row-blocked windows sit at block row t, the weights at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The rows window's block at point t, entry (p, k): the array's entry (5000 t + p, k). -/
theorem blk2_0_apply (c : Dev nD) (t : Fin cfg2.N) (p : Fin 5000) (k : Fin 64) (r : Fin 50000) (hr : r.val = t.val * 5000 + p.val) :
    (iblk2 V c 0 t : Vec Ideal S5000x64 .f32) (ix2 p k) = (V c main_v59 : S50000x64.Idx → Ideal .f32) (ix2 r k) := by
  obtain ⟨e0, e1, -, -, -, -⟩ := idx_facts2 t
  unfold iblk2
  rw [View.read_apply]
  show V c main_v59 (((cfg2.win 0).blk t).view.emb (ix2 p k)) = V c main_v59 (ix2 r k)
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The weights window's block at any point is the whole weight matrix. -/
theorem blk2_1_apply (c : Dev nD) (t : Fin cfg2.N) (k : Fin 64) (q : Fin 64) :
    (iblk2 V c 1 t : Vec Ideal S64x64 .f32) (ix2 k q) = (V c main_v61 : S64x64.Idx → Ideal .f32) (ix2 k q) := by
  obtain ⟨-, -, e2, e3, -, -⟩ := idx_facts2 t
  unfold iblk2
  rw [View.read_apply]
  show V c main_v61 (((cfg2.win 1).blk t).view.emb (ix2 k q)) = V c main_v61 (ix2 k q)
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- Block t of the output at a block entry is the projection at the entry's place in the array. -/
theorem out2_apply (c : Dev nD) (t : Fin cfg2.N) (j : S5000x64.Idx) :
    k2_pay1 (F := Ideal) (iblk2 V c 0 t) (iblk2 V c 1 t) j
      = Cert.Gcn.proj (n := 50000) (k := 64) (d := 64) (V c main_v59) (V c main_v61) (((cfg2.win 2).blk t).view.emb j) := by
  obtain ⟨p, q, rfl⟩ : ∃ (p : Fin 5000) (q : Fin 64), j = ix2 p q := ⟨j 0, j 1, eq_ix2 j⟩
  have hN : grid2.N = 10 := N_2
  have ht : t.val < 10 := by have h : t.val < grid2.N := t.isLt; omega
  obtain ⟨-, -, -, -, e4, e5⟩ := idx_facts2 t
  have hr : t.val * 5000 + p.val < 50000 := by have := p.isLt; omega
  have he : ((cfg2.win 2).blk t).view.emb (ix2 p q) = (ix2 (⟨t.val * 5000 + p.val, hr⟩ : Fin 50000) q : S50000x64.Idx) := by
    funext a
    apply Fin.ext
    match a with
    | ⟨0, _⟩ => show win2_2.index t (0 : Fin 2) * 5000 + 1 * p.val = t.val * 5000 + p.val; rw [e4]; omega
    | ⟨1, _⟩ => show win2_2.index t (1 : Fin 2) * 64 + 1 * q.val = q.val; rw [e5]; omega
  rw [he, pay2_apply]
  unfold Cert.Gcn.proj
  rw [Cert.Gcn.row_ix2, Cert.Gcn.col_ix2]
  refine Finset.sum_congr rfl fun k _ => ?_
  rw [blk2_0_apply V c t p k ⟨t.val * 5000 + p.val, hr⟩ rfl, blk2_1_apply V c t k q]

/-- What point t writes back is block t of the projection of the two input arrays. -/
theorem flushed2_eq (c : Dev nD) (t : Fin cfg2.N) :
    (dat2 (F := Ideal) V c).flushed 2 t = ((cfg2.win 2).blk t).view.read (Elt Ideal)
      (Cert.Gcn.proj (n := 50000) (k := 64) (d := 64) (V c main_v59) (V c main_v61)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64x64) hz2]
  funext j
  rw [View.read_apply]
  exact out2_apply V c t j

/-- An index of the array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v62).slice (win2_2.rect t)).set ↔ _
  rw [View.set_slice_whole, Rect.mem_set_unit]
  exact Iff.rfl

/-- Row r of the array is in the block of point r / 5000. -/
theorem cover2 (i : S50000x64.Idx) : ∃ t : Fin cfg2.N, (cfg2.win 2).flush t = true ∧ i ∈ ((cfg2.win 2).blk t).view.set := by
  have hN : grid2.N = 10 := N_2
  have hi0 : (i 0).val < 50000 := (i 0).isLt
  have hi1 : (i 1).val < 64 := (i 1).isLt
  have hlt : (i 0).val / 5000 < grid2.N := by omega
  obtain ⟨-, -, -, -, e4, e5⟩ := idx_facts2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 64 ≤ (i 1).val ∧ (i 1).val < win2_2.index ⟨(i 0).val / 5000, hlt⟩ (1 : Fin 2) * 64 + 64
    rw [e5]; omega

/-- The projection region's output array after all its write-backs: the projection of its two input arrays. -/
theorem region2 (c : Dev nD) : (dat2 (F := Ideal) V c).arrAt 2 cfg2.N
    = Cert.Gcn.proj (n := 50000) (k := 64) (d := 64) (V c main_v59) (V c main_v61) :=
  (dat2 (F := Ideal) V c).arrAt_eq_of_cover 2 _ (fun t _ => flushed2_eq V c t) cover2

end Cert.KernelIdeal.RegionVal

end
-- ==== Proof.Region3.lean ====
/-
  The combination stage with normalisation, from blocks to the whole array.

  The stage runs over ten grid points. Point t reads rows 5000 t … 5000 t + 4999 of the aggregated messages, of the
  nodes' own projected rows and of the self-loop weights, and the whole of five per-channel rows — bias, gain,
  offset, running mean, running variance — and writes the same rows of the output. Entry by entry the written block
  is the normalised combination of the eight input arrays read at those rows, with the positive part kept, and the
  ten blocks tile the 50000 rows; so after the last write the output array is that function of the input arrays.
-/
import proofs.«114617_j28595892256902_1_alg».proof.Proof.Gen.KernelIdeal.Frame
import proofs.«114617_j28595892256902_1_alg».proof.Proof.Spec
import proofs.«114617_j28595892256902_1_alg».proof.Proof.LibRowBroadcast
import proofs.«114617_j28595892256902_1_alg».proof.Proof.LibColBroadcast
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The two zero offsets, as the constant function. -/
theorem hz3 : (![0, 0] : Fin 2 → Nat) = fun _ => 0 := funext fun a => by fin_cases a <;> rfl

/-! ## The body's value at an entry -/

/-- A reciprocal square root taken entry by entry, read at an entry. -/
theorem rsqrt_apply_3 {s : Shape} {φ : FTy} (a : FVec Ideal s φ) (i : s.Idx) : rsqrt a i = Ideal.rsqrt (a i) := rfl

/-- Entry (p, q) of what the body stores. The combination — the aggregated entry, plus the node's own entry times
    the node's self-loop weight, plus the bias entry — has the channel's mean subtracted, is multiplied by the
    channel's gain and by the reciprocal square root of the channel's variance plus epsilon, has the channel's offset
    added, and the positive part is kept. The column of weights is broadcast along the channels, every row of
    per-channel numbers down the nodes. -/
theorem pay3_apply (x0 x1 : Vec Ideal S5000x64 .f32) (x2 : Vec Ideal S5000x1 .f32) (x3 g mu va be : Vec Ideal S1x64 .f32)
    (p : Fin 5000) (q : Fin 64) :
    k3_pay1 (F := Ideal) x0 x1 x2 x3 g mu va be (ix2 p q)
      = max (g (ix2 (0 : Fin 1) q)
            * (x0 (ix2 p q) + x1 (ix2 p q) * x2 (ix2 p (0 : Fin 1)) + x3 (ix2 (0 : Fin 1) q) - mu (ix2 (0 : Fin 1) q))
            * Ideal.rsqrt (va (ix2 (0 : Fin 1) q) + Cert.Gcn.eps) + be (ix2 (0 : Fin 1) q)) Cert.Gcn.zero := by
  unfold k3_pay1
  simp only [shapeCast_self, maximumf_apply, addf_apply, mulf_apply, subf_apply, broadcast_apply, rsqrt_apply_3,
    Cert.ColBroadcast.broadcastTo_a1_ab_apply, Cert.RowBroadcast.broadcastTo_1b_ab_apply]
  rfl

/-- The combination read at an entry given by its coordinates. -/
theorem combine_ix2_3 {n d : ℕ} (agg h : (⟨2, ![n, d]⟩ : Shape).Idx → Cert.Gcn.R) (ns : (⟨2, ![n, 1]⟩ : Shape).Idx → Cert.Gcn.R)
    (b : (⟨2, ![1, d]⟩ : Shape).Idx → Cert.Gcn.R) (P : Fin n) (q : Fin d) :
    Cert.Gcn.combine agg h ns b (ix2 P q) = agg (ix2 P q) + h (ix2 P q) * ns (ix2 P (0 : Fin 1)) + b (ix2 (0 : Fin 1) q) := rfl

/-- The normalisation with the positive part, read at an entry given by its coordinates. -/
theorem bnRelu_ix2_3 {n d : ℕ} (y : (⟨2, ![n, d]⟩ : Shape).Idx → Cert.Gcn.R) (γ β μ var : (⟨2, ![1, d]⟩ : Shape).Idx → Cert.Gcn.R)
    (P : Fin n) (q : Fin d) :
    Cert.Gcn.bnRelu y γ β μ var (ix2 P q)
      = max (γ (ix2 (0 : Fin 1) q) * (y (ix2 P q) - μ (ix2 (0 : Fin 1) q))
          * Ideal.rsqrt (var (ix2 (0 : Fin 1) q) + Cert.Gcn.eps) + β (ix2 (0 : Fin 1) q)) Cert.Gcn.zero := rfl

/-! ## The block indices over the grid -/

/-- At grid point t the row-blocked windows sit at block (t, 0), the five per-channel rows at block (0, 0). -/
theorem idx3 : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = t.val ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 2) = 0 ∧ win3_5.index t (1 : Fin 2) = 0
  ∧ win3_6.index t (0 : Fin 2) = 0 ∧ win3_6.index t (1 : Fin 2) = 0
  ∧ win3_7.index t (0 : Fin 2) = 0 ∧ win3_7.index t (1 : Fin 2) = 0
  ∧ win3_8.index t (0 : Fin 2) = t.val ∧ win3_8.index t (1 : Fin 2) = 0 :=
  (by decide +kernel : ∀ t : Fin grid3.N, _)

/-! ## Each input block as entries of its array -/

/-- Window 0's block at a grid point, read at block coordinates x, is the array at the index k whose first
    coordinate is the point's block offset plus x's and whose second is x's. -/
theorem blk3_0_apply (c : Dev nD) (t : Fin cfg3.N) (x : S5000x64.Idx) (k : S50000x64.Idx)
    (hk0 : (k 0).val = t.val * 5000 + (x 0).val) (hk1 : (k 1).val = (x 1).val) :
    (iblk3 V c 0 t : Vec Ideal S5000x64 .f32) x = (V c main_v75 : S50000x64.Idx → Elt Ideal .f32) k := by
  obtain ⟨h0, h1, -, -, -, -, -, -, -, -, -, -, -, -, -, -, -, -⟩ := idx3 t
  unfold iblk3
  rw [View.read_apply]
  show V c main_v75 _ = V c main_v75 _
  congr 1
  funext a
  apply Fin.ext
  match a with
  | ⟨0, _⟩ => show win3_0.index t 0 * 5000 + 1 * (x 0).val = (k 0).val; rw [h0, hk0]; omega
  | ⟨1, _⟩ => show win3_0.index t 1 * 64 + 1 * (x 1).val = (k 1).val; rw [h1, hk1]; omega

/-- Window 1's block at a grid point, read at block coordinates x, is the array at the index k whose first
    coordinate is the point's block offset plus x's and whose second is x's. -/
theorem blk3_1_apply (c : Dev nD) (t : Fin cfg3.N) (x : S5000x64.Idx) (k : S50000x64.Idx)
    (hk0 : (k 0).val = t.val * 5000 + (x 0).val) (hk1 : (k 1).val = (x 1).val) :
    (iblk3 V c 1 t : Vec Ideal S5000x64 .f32) x = (V c main_v62 : S50000x64.Idx → Elt Ideal .f32) k := by
  obtain ⟨-, -, h0, h1, -, -, -, -, -, -, -, -, -, -, -, -, -, -⟩ := idx3 t
  unfold iblk3
  rw [View.read_apply]
  show V c main_v62 _ = V c main_v62 _
  congr 1
  funext a
  apply Fin.ext
  match a with
  | ⟨0, _⟩ => show win3_1.index t 0 * 5000 + 1 * (x 0).val = (k 0).val; rw [h0, hk0]; omega
  | ⟨1, _⟩ => show win3_1.index t 1 * 64 + 1 * (x 1).val = (k 1).val; rw [h1, hk1]; omega

/-- Window 2's block at a grid point, read at block coordinates x, is the array at the index k whose first
    coordinate is the point's block offset plus x's and whose second is x's. -/
theorem blk3_2_apply (c : Dev nD) (t : Fin cfg3.N) (x : S5000x1.Idx) (k : S50000x1.Idx)
    (hk0 : (k 0).val = t.val * 5000 + (x 0).val) (hk1 : (k 1).val = (x 1).val) :
    (iblk3 V c 2 t : Vec Ideal S5000x1 .f32) x = (V c main_v86 : S50000x1.Idx → Elt Ideal .f32) k := by
  obtain ⟨-, -, -, -, h0, h1, -, -, -, -, -, -, -, -, -, -, -, -⟩ := idx3 t
  unfold iblk3
  rw [View.read_apply]
  show V c main_v86 _ = V c main_v86 _
  congr 1
  funext a
  apply Fin.ext
  match a with
  | ⟨0, _⟩ => show win3_2.index t 0 * 5000 + 1 * (x 0).val = (k 0).val; rw [h0, hk0]; omega
  | ⟨1, _⟩ => show win3_2.index t 1 * 1 + 1 * (x 1).val = (k 1).val; rw [h1, hk1]; omega

/-- Window 3's block at a grid point, read at block coordinates x, is the array at the index k whose first
    coordinate is x's and whose second is x's. -/
theorem blk3_3_apply (c : Dev nD) (t : Fin cfg3.N) (x : S1x64.Idx) (k : S1x64.Idx)
    (hk0 : (k 0).val = (x 0).val) (hk1 : (k 1).val = (x 1).val) :
    (iblk3 V c 3 t : Vec Ideal S1x64 .f32) x = (V c main_v87 : S1x64.Idx → Elt Ideal .f32) k := by
  obtain ⟨-, -, -, -, -, -, h0, h1, -, -, -, -, -, -, -, -, -, -⟩ := idx3 t
  unfold iblk3
  rw [View.read_apply]
  show V c main_v87 _ = V c main_v87 _
  congr 1
  funext a
  apply Fin.ext
  match a with
  | ⟨0, _⟩ => show win3_3.index t 0 * 1 + 1 * (x 0).val = (k 0).val; rw [h0, hk0]; omega
  | ⟨1, _⟩ => show win3_3.index t 1 * 64 + 1 * (x 1).val = (k 1).val; rw [h1, hk1]; omega

/-- Window 4's block at a grid point, read at block coordinates x, is the array at the index k whose first
    coordinate is x's and whose second is x's. -/
theorem blk3_4_apply (c : Dev nD) (t : Fin cfg3.N) (x : S1x64.Idx) (k : S1x64.Idx)
    (hk0 : (k 0).val = (x 0).val) (hk1 : (k 1).val = (x 1).val) :
    (iblk3 V c 4 t : Vec Ideal S1x64 .f32) x = (V c main_v88 : S1x64.Idx → Elt Ideal .f32) k := by
  obtain ⟨-, -, -, -, -, -, -, -, h0, h1, -, -, -, -, -, -, -, -⟩ := idx3 t
  unfold iblk3
  rw [View.read_apply]
  show V c main_v88 _ = V c main_v88 _
  congr 1
  funext a
  apply Fin.ext
  match a with
  | ⟨0, _⟩ => show win3_4.index t 0 * 1 + 1 * (x 0).val = (k 0).val; rw [h0, hk0]; omega
  | ⟨1, _⟩ => show win3_4.index t 1 * 64 + 1 * (x 1).val = (k 1).val; rw [h1, hk1]; omega

/-- Window 5's block at a grid point, read at block coordinates x, is the array at the index k whose first
    coordinate is x's and whose second is x's. -/
theorem blk3_5_apply (c : Dev nD) (t : Fin cfg3.N) (x : S1x64.Idx) (k : S1x64.Idx)
    (hk0 : (k 0).val = (x 0).val) (hk1 : (k 1).val = (x 1).val) :
    (iblk3 V c 5 t : Vec Ideal S1x64 .f32) x = (V c main_v89 : S1x64.Idx → Elt Ideal .f32) k := by
  obtain ⟨-, -, -, -, -, -, -, -, -, -, h0, h1, -, -, -, -, -, -⟩ := idx3 t
  unfold iblk3
  rw [View.read_apply]
  show V c main_v89 _ = V c main_v89 _
  congr 1
  funext a
  apply Fin.ext
  match a with
  | ⟨0, _⟩ => show win3_5.index t 0 * 1 + 1 * (x 0).val = (k 0).val; rw [h0, hk0]; omega
  | ⟨1, _⟩ => show win3_5.index t 1 * 64 + 1 * (x 1).val = (k 1).val; rw [h1, hk1]; omega

/-- Window 6's block at a grid point, read at block coordinates x, is the array at the index k whose first
    coordinate is x's and whose second is x's. -/
theorem blk3_6_apply (c : Dev nD) (t : Fin cfg3.N) (x : S1x64.Idx) (k : S1x64.Idx)
    (hk0 : (k 0).val = (x 0).val) (hk1 : (k 1).val = (x 1).val) :
    (iblk3 V c 6 t : Vec Ideal S1x64 .f32) x = (V c main_v90 : S1x64.Idx → Elt Ideal .f32) k := by
  obtain ⟨-, -, -, -, -, -, -, -, -, -, -, -, h0, h1, -, -, -, -⟩ := idx3 t
  unfold iblk3
  rw [View.read_apply]
  show V c main_v90 _ = V c main_v90 _
  congr 1
  funext a
  apply Fin.ext
  match a with
  | ⟨0, _⟩ => show win3_6.index t 0 * 1 + 1 * (x 0).val = (k 0).val; rw [h0, hk0]; omega
  | ⟨1, _⟩ => show win3_6.index t 1 * 64 + 1 * (x 1).val = (k 1).val; rw [h1, hk1]; omega

/-- Window 7's block at a grid point, read at block coordinates x, is the array at the index k whose first
    coordinate is x's and whose second is x's. -/
theorem blk3_7_apply (c : Dev nD) (t : Fin cfg3.N) (x : S1x64.Idx) (k : S1x64.Idx)
    (hk0 : (k 0).val = (x 0).val) (hk1 : (k 1).val = (x 1).val) :
    (iblk3 V c 7 t : Vec Ideal S1x64 .f32) x = (V c main_v91 : S1x64.Idx → Elt Ideal .f32) k := by
  obtain ⟨-, -, -, -, -, -, -, -, -, -, -, -, -, -, h0, h1, -, -⟩ := idx3 t
  unfold iblk3
  rw [View.read_apply]
  show V c main_v91 _ = V c main_v91 _
  congr 1
  funext a
  apply Fin.ext
  match a with
  | ⟨0, _⟩ => show win3_7.index t 0 * 1 + 1 * (x 0).val = (k 0).val; rw [h0, hk0]; omega
  | ⟨1, _⟩ => show win3_7.index t 1 * 64 + 1 * (x 1).val = (k 1).val; rw [h1, hk1]; omega

/-! ## What a grid point writes back -/

/-- Grid point t writes back block t of the normalised combination of the eight input arrays. -/
theorem flushed3_eq (c : Dev nD) (t : Fin cfg3.N) :
    (dat3 (F := Ideal) V c).flushed 8 t = ((cfg3.win 8).blk t).view.read (Elt Ideal)
      (Cert.Gcn.bnRelu (n := 50000) (d := 64) (Cert.Gcn.combine (n := 50000) (d := 64) (V c main_v75) (V c main_v62) (V c main_v86) (V c main_v87)) (V c main_v88) (V c main_v89) (V c main_v90) (V c main_v91)) := by
  show (cfg3.win 8).cut (grid3.coords t) ((dat3 V c).after 8 t) = _
  rw [after3_8]
  unfold out3_8
  rw [View.canon_unit_zero hz3]
  simp only [View.ld_unit_zero (S := S5000x64) hz3, View.ld_unit_zero (S := S5000x1) hz3, View.ld_unit_zero (S := S1x64) hz3]
  funext j
  obtain ⟨p, q, rfl⟩ : ∃ (p : Fin 5000) (q : Fin 64), j = ix2 p q := ⟨j 0, j 1, eq_ix2 j⟩
  have hN : grid3.N = 10 := N_3
  have ht : t.val < 10 := by have h := t.isLt; change t.val < grid3.N at h; omega
  obtain ⟨-, -, -, -, -, -, -, -, -, -, -, -, -, -, -, -, h0, h1⟩ := idx3 t
  have e : ((cfg3.win 8).blk t).view.emb (ix2 p q) = ix2 (⟨t.val * 5000 + p.val, by omega⟩ : Fin 50000) q := by
    funext a; apply Fin.ext
    match a with
    | ⟨0, _⟩ => show win3_8.index t 0 * 5000 + 1 * p.val = t.val * 5000 + p.val; rw [h0]; omega
    | ⟨1, _⟩ => show win3_8.index t 1 * 64 + 1 * q.val = q.val; rw [h1]; omega
  show k3_pay1 (F := Ideal) (iblk3 V c 0 t) (iblk3 V c 1 t) (iblk3 V c 2 t) (iblk3 V c 3 t) (iblk3 V c 4 t) (iblk3 V c 6 t) (iblk3 V c 7 t) (iblk3 V c 5 t) (ix2 p q)
    = Cert.Gcn.bnRelu (n := 50000) (d := 64) (Cert.Gcn.combine (n := 50000) (d := 64) (V c main_v75) (V c main_v62) (V c main_v86) (V c main_v87)) (V c main_v88) (V c main_v89) (V c main_v90) (V c main_v91)
        (((cfg3.win 8).blk t).view.emb (ix2 p q))
  rw [pay3_apply, e, bnRelu_ix2_3, combine_ix2_3]
  rw [blk3_0_apply V c t (ix2 p q) (ix2 (⟨t.val * 5000 + p.val, by omega⟩ : Fin 50000) q) rfl rfl,
    blk3_1_apply V c t (ix2 p q) (ix2 (⟨t.val * 5000 + p.val, by omega⟩ : Fin 50000) q) rfl rfl,
    blk3_2_apply V c t (ix2 p (0 : Fin 1)) (ix2 (⟨t.val * 5000 + p.val, by omega⟩ : Fin 50000) (0 : Fin 1)) rfl rfl,
    blk3_3_apply V c t (ix2 (0 : Fin 1) q) (ix2 (0 : Fin 1) q) rfl rfl,
    blk3_4_apply V c t (ix2 (0 : Fin 1) q) (ix2 (0 : Fin 1) q) rfl rfl,
    blk3_5_apply V c t (ix2 (0 : Fin 1) q) (ix2 (0 : Fin 1) q) rfl rfl,
    blk3_6_apply V c t (ix2 (0 : Fin 1) q) (ix2 (0 : Fin 1) q) rfl rfl,
    blk3_7_apply V c t (ix2 (0 : Fin 1) q) (ix2 (0 : Fin 1) q) rfl rfl]

/-! ## The blocks cover the array -/

/-- An entry of the array is in grid point t's block iff each coordinate is in the block's range on its axis. -/
theorem mem_blk3 (t : Fin cfg3.N) (i : S50000x64.Idx) :
    i ∈ ((cfg3.win 8).blk t).view.set ↔ ∀ a : Fin 2, win3_8.index t a * S5000x64.size a ≤ (i a).val ∧ (i a).val < win3_8.index t a * S5000x64.size a + S5000x64.size a := by
  show i ∈ ((View.whole main_v92).slice (win3_8.rect t)).set ↔ _
  rw [View.set_slice_whole, Rect.mem_set_unit]
  exact Iff.rfl

/-- Row r of the array lies in the block of grid point r / 5000, and every point writes its block back. -/
theorem cover3 (i : S50000x64.Idx) : ∃ t : Fin cfg3.N, (cfg3.win 8).flush t = true ∧ i ∈ ((cfg3.win 8).blk t).view.set := by
  have hN : grid3.N = 10 := N_3
  have hi0 : (i 0).val < 50000 := (i 0).isLt
  have hi1 : (i 1).val < 64 := (i 1).isLt
  have ht : (i 0).val / 5000 < cfg3.N := by show _ < grid3.N; omega
  refine ⟨⟨(i 0).val / 5000, ht⟩, flush3_8 _, ?_⟩
  rw [mem_blk3]
  obtain ⟨-, -, -, -, -, -, -, -, -, -, -, -, -, -, -, -, h0, h1⟩ := idx3 ⟨(i 0).val / 5000, ht⟩
  intro a
  match a with
  | ⟨0, _⟩ =>
    show win3_8.index ⟨(i 0).val / 5000, ht⟩ (0 : Fin 2) * 5000 ≤ (i 0).val ∧ (i 0).val < win3_8.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win3_8.index ⟨(i 0).val / 5000, ht⟩ (1 : Fin 2) * 64 ≤ (i 1).val ∧ (i 1).val < win3_8.index ⟨(i 0).val / 5000, ht⟩ (1 : Fin 2) * 64 + 64
    rw [h1]; omega

/-! ## The array after the stage -/

/-- After all ten write-backs the output array is the normalised combination of the stage's eight input arrays. -/
theorem region3 (c : Dev nD) : (dat3 (F := Ideal) V c).arrAt 8 cfg3.N = Cert.Gcn.bnRelu (n := 50000) (d := 64) (Cert.Gcn.combine (n := 50000) (d := 64) (V c main_v75) (V c main_v62) (V c main_v86) (V c main_v87)) (V c main_v88) (V c main_v89) (V c main_v90) (V c main_v91) :=
  (dat3 (F := Ideal) V c).arrAt_eq_of_cover 8 _ (fun t _ => flushed3_eq V c t) cover3

end Cert.KernelIdeal.RegionVal

end
-- ==== Proof.Region4.lean ====
/-
  The projection stage's output array, entry by entry.

  The stage cuts the node-feature array into ten blocks of 5000 rows; at each block it multiplies the block's rows
  by the whole 64 × 64 weight matrix and writes the product back as the matching block of rows of the output array.
  Entry (p, q) of a block's product is the sum over k of the block's (p, k) times the weights' (k, q) (the format
  changes in between are the identity over the extended reals), and row p of block t is row 5000 t + p of the
  array, so the output array is, at every entry, the whole-array projection of the two input arrays: row r lies
  in the block of point r / 5000.
-/
import proofs.«114617_j28595892256902_1_alg».proof.Proof.Gen.KernelIdeal.Frame
import proofs.«114617_j28595892256902_1_alg».proof.Proof.Spec
import proofs.«114617_j28595892256902_1_alg».proof.Proof.LibDotRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx Idealize.SL.Sem
open Idealize.ShloMosaic.TcCoe Cert.Hand

variable (V : (c : Dev nD) → (b : Ref sig .tc) → Buf (Elt Ideal) ((c : Thread nD τ).loc b))

theorem hz4 : (![0, 0] : Fin 2 → Nat) = fun _ => 0 := funext fun a => by fin_cases a <;> rfl

/-- The projection's payload at an entry: row p of the block times column q of the weights. -/
theorem pay4_apply (x0 : Vec Ideal S5000x64 .f32) (x1 : Vec Ideal S64x64 .f32) (p : Fin 5000) (q : Fin 64) :
    k4_pay1 (F := Ideal) x0 x1 (ix2 p q) = ∑ k : Fin 64, x0 (ix2 p k) * x1 (ix2 k q) := by
  unfold k4_pay1
  simp only [matmul, shapeCast_self]
  rw [Ideal.matmul_constant_zero_apply]
  dot_rows dot_S5000x64_S64x64_S5000x64_1_0_0_1_n_n S5000x64 S64x64 64
  rfl

/-- The windows' block indices at every grid point: the row-blocked windows sit at block row t, the weights at the origin. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The rows window's block at point t, entry (p, k): the array's entry (5000 t + p, k). -/
theorem blk4_0_apply (c : Dev nD) (t : Fin cfg4.N) (p : Fin 5000) (k : Fin 64) (r : Fin 50000) (hr : r.val = t.val * 5000 + p.val) :
    (iblk4 V c 0 t : Vec Ideal S5000x64 .f32) (ix2 p k) = (V c main_v92 : S50000x64.Idx → Ideal .f32) (ix2 r k) := by
  obtain ⟨e0, e1, -, -, -, -⟩ := idx_facts4 t
  unfold iblk4
  rw [View.read_apply]
  show V c main_v92 (((cfg4.win 0).blk t).view.emb (ix2 p k)) = V c main_v92 (ix2 r k)
  congr 1
  funext a
  apply Fin.ext
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

/-- The weights window's block at any point is the whole weight matrix. -/
theorem blk4_1_apply (c : Dev nD) (t : Fin cfg4.N) (k : Fin 64) (q : Fin 64) :
    (iblk4 V c 1 t : Vec Ideal S64x64 .f32) (ix2 k q) = (V c main_v94 : S64x64.Idx → Ideal .f32) (ix2 k q) := by
  obtain ⟨-, -, e2, e3, -, -⟩ := idx_facts4 t
  unfold iblk4
  rw [View.read_apply]
  show V c main_v94 (((cfg4.win 1).blk t).view.emb (ix2 k q)) = V c main_v94 (ix2 k q)
  congr 1
  funext a
  apply Fin.ext
  match a with
  | ⟨0, _⟩ => show win4_1.index t (0 : Fin 2) * 64 + 1 * k.val = k.val; rw [e2]; omega
  | ⟨1, _⟩ => show win4_1.index t (1 : Fin 2) * 64 + 1 * q.val = q.val; rw [e3]; omega

/-- Block t of the output at a block entry is the projection at the entry's place in the array. -/
theorem out4_apply (c : Dev nD) (t : Fin cfg4.N) (j : S5000x64.Idx) :
    k4_pay1 (F := Ideal) (iblk4 V c 0 t) (iblk4 V c 1 t) j
      = Cert.Gcn.proj (n := 50000) (k := 64) (d := 64) (V c main_v92) (V c main_v94) (((cfg4.win 2).blk t).view.emb j) := by
  obtain ⟨p, q, rfl⟩ : ∃ (p : Fin 5000) (q : Fin 64), j = ix2 p q := ⟨j 0, j 1, eq_ix2 j⟩
  have hN : grid4.N = 10 := N_4
  have ht : t.val < 10 := by have h : t.val < grid4.N := t.isLt; omega
  obtain ⟨-, -, -, -, e4, e5⟩ := idx_facts4 t
  have hr : t.val * 5000 + p.val < 50000 := by have := p.isLt; omega
  have he : ((cfg4.win 2).blk t).view.emb (ix2 p q) = (ix2 (⟨t.val * 5000 + p.val, hr⟩ : Fin 50000) q : S50000x64.Idx) := by
    funext a
    apply Fin.ext
    match a with
    | ⟨0, _⟩ => show win4_2.index t (0 : Fin 2) * 5000 + 1 * p.val = t.val * 5000 + p.val; rw [e4]; omega
    | ⟨1, _⟩ => show win4_2.index t (1 : Fin 2) * 64 + 1 * q.val = q.val; rw [e5]; omega
  rw [he, pay4_apply]
  unfold Cert.Gcn.proj
  rw [Cert.Gcn.row_ix2, Cert.Gcn.col_ix2]
  refine Finset.sum_congr rfl fun k _ => ?_
  rw [blk4_0_apply V c t p k ⟨t.val * 5000 + p.val, hr⟩ rfl, blk4_1_apply V c t k q]

/-- What point t writes back is block t of the projection of the two input arrays. -/
theorem flushed4_eq (c : Dev nD) (t : Fin cfg4.N) :
    (dat4 (F := Ideal) V c).flushed 2 t = ((cfg4.win 2).blk t).view.read (Elt Ideal)
      (Cert.Gcn.proj (n := 50000) (k := 64) (d := 64) (V c main_v92) (V c main_v94)) := by
  show (cfg4.win 2).cut (grid4.coords t) ((dat4 V c).after 2 t) = _
  rw [after4_2]
  unfold out4_2
  rw [View.canon_unit_zero hz4]
  simp only [View.ld_unit_zero (S := S5000x64) hz4, View.ld_unit_zero (S := S64x64) hz4]
  funext j
  rw [View.read_apply]
  exact out4_apply V c t j

/-- An index of the array is in point t's block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v95).slice (win4_2.rect t)).set ↔ _
  rw [View.set_slice_whole, Rect.mem_set_unit]
  exact Iff.rfl

/-- Row r of the array is in the block of point r / 5000. -/
theorem cover4 (i : S50000x64.Idx) : ∃ t : Fin cfg4.N, (cfg4.win 2).flush t = true ∧ i ∈ ((cfg4.win 2).blk t).view.set := by
  have hN : grid4.N = 10 := N_4
  have hi0 : (i 0).val < 50000 := (i 0).isLt
  have hi1 : (i 1).val < 64 := (i 1).isLt
  have hlt : (i 0).val / 5000 < grid4.N := by omega
  obtain ⟨-, -, -, -, e4, e5⟩ := idx_facts4 ⟨(i 0).val / 5000, hlt⟩
  refine ⟨⟨(i 0).val / 5000, hlt⟩, flush4_2 _, ?_⟩
  rw [mem_blk4]
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hlt⟩ (1 : Fin 2) * 64 ≤ (i 1).val ∧ (i 1).val < win4_2.index ⟨(i 0).val / 5000, hlt⟩ (1 : Fin 2) * 64 + 64
    rw [e5]; omega

/-- The projection region's output array after all its write-backs: the projection of its two input arrays. -/
theorem region4 (c : Dev nD) : (dat4 (F := Ideal) V c).arrAt 2 cfg4.N
    = Cert.Gcn.proj (n := 50000) (k := 64) (d := 64) (V c main_v92) (V c main_v94) :=
  (dat4 (F := Ideal) V c).arrAt_eq_of_cover 2 _ (fun t _ => flushed4_eq V c t) cover4

end Cert.KernelIdeal.RegionVal

end
-- ==== Proof.Region5.lean ====
/-
  The plain combination stage, from blocks to the whole array.

  The stage runs over ten grid points. Point t reads rows 5000 t … 5000 t + 4999 of the aggregated messages, of the
  nodes' own projected rows and of the self-loop weights, and the whole bias row, and writes the same rows of the
  output. Entry by entry the written block is the combination of the four input arrays read at those rows, and the ten
  blocks tile the 50000 rows; so after the last write the output array is the combination of the input arrays.
-/
import proofs.«114617_j28595892256902_1_alg».proof.Proof.Gen.KernelIdeal.Frame
import proofs.«114617_j28595892256902_1_alg».proof.Proof.Spec
import proofs.«114617_j28595892256902_1_alg».proof.Proof.LibRowBroadcast
import proofs.«114617_j28595892256902_1_alg».proof.Proof.LibColBroadcast
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The two zero offsets, as the constant function. -/
theorem hz5 : (![0, 0] : Fin 2 → Nat) = fun _ => 0 := funext fun a => by fin_cases a <;> rfl

/-! ## The body's value at an entry -/

/-- Entry (p, q) of what the body stores: the aggregated entry, plus the node's own entry times the node's
    self-loop weight (the column broadcast along the channels), plus the bias entry (the row broadcast down the
    nodes). -/
theorem pay5_apply (x0 x1 : Vec Ideal S5000x64 .f32) (x2 : Vec Ideal S5000x1 .f32) (x3 : Vec Ideal S1x64 .f32)
    (p : Fin 5000) (q : Fin 64) :
    k5_pay1 (F := Ideal) x0 x1 x2 x3 (ix2 p q)
      = x0 (ix2 p q) + x1 (ix2 p q) * x2 (ix2 p (0 : Fin 1)) + x3 (ix2 (0 : Fin 1) q) := by
  unfold k5_pay1
  simp only [shapeCast_self, addf_apply, mulf_apply]
  rw [Cert.ColBroadcast.broadcastTo_a1_ab_apply, Cert.RowBroadcast.broadcastTo_1b_ab_apply]

/-- The combination read at an entry given by its coordinates. -/
theorem combine_ix2_5 {n d : ℕ} (agg h : (⟨2, ![n, d]⟩ : Shape).Idx → Cert.Gcn.R) (ns : (⟨2, ![n, 1]⟩ : Shape).Idx → Cert.Gcn.R)
    (b : (⟨2, ![1, d]⟩ : Shape).Idx → Cert.Gcn.R) (P : Fin n) (q : Fin d) :
    Cert.Gcn.combine agg h ns b (ix2 P q) = agg (ix2 P q) + h (ix2 P q) * ns (ix2 P (0 : Fin 1)) + b (ix2 (0 : Fin 1) q) := rfl

/-! ## The block indices over the grid -/

/-- At grid point t the row-blocked windows sit at block (t, 0), the bias row at block (0, 0). -/
theorem idx5 : ∀ t : Fin cfg5.N,
    win5_0.index t (0 : Fin 2) = t.val ∧ win5_0.index t (1 : Fin 2) = 0
  ∧ win5_1.index t (0 : Fin 2) = t.val ∧ win5_1.index t (1 : Fin 2) = 0
  ∧ win5_2.index t (0 : Fin 2) = t.val ∧ win5_2.index t (1 : Fin 2) = 0
  ∧ win5_3.index t (0 : Fin 2) = 0 ∧ win5_3.index t (1 : Fin 2) = 0
  ∧ win5_4.index t (0 : Fin 2) = t.val ∧ win5_4.index t (1 : Fin 2) = 0 :=
  (by decide +kernel : ∀ t : Fin grid5.N, _)

/-! ## Each input block as entries of its array -/

/-- Window 0's block at a grid point, read at block coordinates x, is the array at the index k whose first
    coordinate is the point's block offset plus x's and whose second is x's. -/
theorem blk5_0_apply (c : Dev nD) (t : Fin cfg5.N) (x : S5000x64.Idx) (k : S50000x64.Idx)
    (hk0 : (k 0).val = t.val * 5000 + (x 0).val) (hk1 : (k 1).val = (x 1).val) :
    (iblk5 V c 0 t : Vec Ideal S5000x64 .f32) x = (V c main_v108 : S50000x64.Idx → Elt Ideal .f32) k := by
  obtain ⟨h0, h1, -, -, -, -, -, -, -, -⟩ := idx5 t
  unfold iblk5
  rw [View.read_apply]
  show V c main_v108 _ = V c main_v108 _
  congr 1
  funext a
  apply Fin.ext
  match a with
  | ⟨0, _⟩ => show win5_0.index t 0 * 5000 + 1 * (x 0).val = (k 0).val; rw [h0, hk0]; omega
  | ⟨1, _⟩ => show win5_0.index t 1 * 64 + 1 * (x 1).val = (k 1).val; rw [h1, hk1]; omega

/-- Window 1's block at a grid point, read at block coordinates x, is the array at the index k whose first
    coordinate is the point's block offset plus x's and whose second is x's. -/
theorem blk5_1_apply (c : Dev nD) (t : Fin cfg5.N) (x : S5000x64.Idx) (k : S50000x64.Idx)
    (hk0 : (k 0).val = t.val * 5000 + (x 0).val) (hk1 : (k 1).val = (x 1).val) :
    (iblk5 V c 1 t : Vec Ideal S5000x64 .f32) x = (V c main_v95 : S50000x64.Idx → Elt Ideal .f32) k := by
  obtain ⟨-, -, h0, h1, -, -, -, -, -, -⟩ := idx5 t
  unfold iblk5
  rw [View.read_apply]
  show V c main_v95 _ = V c main_v95 _
  congr 1
  funext a
  apply Fin.ext
  match a with
  | ⟨0, _⟩ => show win5_1.index t 0 * 5000 + 1 * (x 0).val = (k 0).val; rw [h0, hk0]; omega
  | ⟨1, _⟩ => show win5_1.index t 1 * 64 + 1 * (x 1).val = (k 1).val; rw [h1, hk1]; omega

/-- Window 2's block at a grid point, read at block coordinates x, is the array at the index k whose first
    coordinate is the point's block offset plus x's and whose second is x's. -/
theorem blk5_2_apply (c : Dev nD) (t : Fin cfg5.N) (x : S5000x1.Idx) (k : S50000x1.Idx)
    (hk0 : (k 0).val = t.val * 5000 + (x 0).val) (hk1 : (k 1).val = (x 1).val) :
    (iblk5 V c 2 t : Vec Ideal S5000x1 .f32) x = (V c main_v111 : S50000x1.Idx → Elt Ideal .f32) k := by
  obtain ⟨-, -, -, -, h0, h1, -, -, -, -⟩ := idx5 t
  unfold iblk5
  rw [View.read_apply]
  show V c main_v111 _ = V c main_v111 _
  congr 1
  funext a
  apply Fin.ext
  match a with
  | ⟨0, _⟩ => show win5_2.index t 0 * 5000 + 1 * (x 0).val = (k 0).val; rw [h0, hk0]; omega
  | ⟨1, _⟩ => show win5_2.index t 1 * 1 + 1 * (x 1).val = (k 1).val; rw [h1, hk1]; omega

/-- Window 3's block at a grid point, read at block coordinates x, is the array at the index k whose first
    coordinate is x's and whose second is x's. -/
theorem blk5_3_apply (c : Dev nD) (t : Fin cfg5.N) (x : S1x64.Idx) (k : S1x64.Idx)
    (hk0 : (k 0).val = (x 0).val) (hk1 : (k 1).val = (x 1).val) :
    (iblk5 V c 3 t : Vec Ideal S1x64 .f32) x = (V c main_v112 : S1x64.Idx → Elt Ideal .f32) k := by
  obtain ⟨-, -, -, -, -, -, h0, h1, -, -⟩ := idx5 t
  unfold iblk5
  rw [View.read_apply]
  show V c main_v112 _ = V c main_v112 _
  congr 1
  funext a
  apply Fin.ext
  match a with
  | ⟨0, _⟩ => show win5_3.index t 0 * 1 + 1 * (x 0).val = (k 0).val; rw [h0, hk0]; omega
  | ⟨1, _⟩ => show win5_3.index t 1 * 64 + 1 * (x 1).val = (k 1).val; rw [h1, hk1]; omega

/-! ## What a grid point writes back -/

/-- Grid point t writes back block t of the combination of the four input arrays. -/
theorem flushed5_eq (c : Dev nD) (t : Fin cfg5.N) :
    (dat5 (F := Ideal) V c).flushed 4 t = ((cfg5.win 4).blk t).view.read (Elt Ideal)
      (Cert.Gcn.combine (n := 50000) (d := 64) (V c main_v108) (V c main_v95) (V c main_v111) (V c main_v112)) := by
  show (cfg5.win 4).cut (grid5.coords t) ((dat5 V c).after 4 t) = _
  rw [after5_4]
  unfold out5_4
  rw [View.canon_unit_zero hz5]
  simp only [View.ld_unit_zero (S := S5000x64) hz5, View.ld_unit_zero (S := S5000x1) hz5, View.ld_unit_zero (S := S1x64) hz5]
  funext j
  obtain ⟨p, q, rfl⟩ : ∃ (p : Fin 5000) (q : Fin 64), j = ix2 p q := ⟨j 0, j 1, eq_ix2 j⟩
  have hN : grid5.N = 10 := N_5
  have ht : t.val < 10 := by have h := t.isLt; change t.val < grid5.N at h; omega
  obtain ⟨-, -, -, -, -, -, -, -, h0, h1⟩ := idx5 t
  have e : ((cfg5.win 4).blk t).view.emb (ix2 p q) = ix2 (⟨t.val * 5000 + p.val, by omega⟩ : Fin 50000) q := by
    funext a; apply Fin.ext
    match a with
    | ⟨0, _⟩ => show win5_4.index t 0 * 5000 + 1 * p.val = t.val * 5000 + p.val; rw [h0]; omega
    | ⟨1, _⟩ => show win5_4.index t 1 * 64 + 1 * q.val = q.val; rw [h1]; omega
  show k5_pay1 (F := Ideal) (iblk5 V c 0 t) (iblk5 V c 1 t) (iblk5 V c 2 t) (iblk5 V c 3 t) (ix2 p q)
    = Cert.Gcn.combine (n := 50000) (d := 64) (V c main_v108) (V c main_v95) (V c main_v111) (V c main_v112)
        (((cfg5.win 4).blk t).view.emb (ix2 p q))
  rw [pay5_apply, e, combine_ix2_5]
  rw [blk5_0_apply V c t (ix2 p q) (ix2 (⟨t.val * 5000 + p.val, by omega⟩ : Fin 50000) q) rfl rfl,
    blk5_1_apply V c t (ix2 p q) (ix2 (⟨t.val * 5000 + p.val, by omega⟩ : Fin 50000) q) rfl rfl,
    blk5_2_apply V c t (ix2 p (0 : Fin 1)) (ix2 (⟨t.val * 5000 + p.val, by omega⟩ : Fin 50000) (0 : Fin 1)) rfl rfl,
    blk5_3_apply V c t (ix2 (0 : Fin 1) q) (ix2 (0 : Fin 1) q) rfl rfl]

/-! ## The blocks cover the array -/

/-- An entry of the array is in grid point t's block iff each coordinate is in the block's range on its axis. -/
theorem mem_blk5 (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v113).slice (win5_4.rect t)).set ↔ _
  rw [View.set_slice_whole, Rect.mem_set_unit]
  exact Iff.rfl

/-- Row r of the array lies in the block of grid point r / 5000, and every point writes its block back. -/
theorem cover5 (i : S50000x64.Idx) : ∃ t : Fin cfg5.N, (cfg5.win 4).flush t = true ∧ i ∈ ((cfg5.win 4).blk t).view.set := by
  have hN : grid5.N = 10 := N_5
  have hi0 : (i 0).val < 50000 := (i 0).isLt
  have hi1 : (i 1).val < 64 := (i 1).isLt
  have ht : (i 0).val / 5000 < cfg5.N := by show _ < grid5.N; omega
  refine ⟨⟨(i 0).val / 5000, ht⟩, flush5_4 _, ?_⟩
  rw [mem_blk5]
  obtain ⟨-, -, -, -, -, -, -, -, h0, h1⟩ := idx5 ⟨(i 0).val / 5000, ht⟩
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win5_4.index ⟨(i 0).val / 5000, ht⟩ (1 : Fin 2) * 64 ≤ (i 1).val ∧ (i 1).val < win5_4.index ⟨(i 0).val / 5000, ht⟩ (1 : Fin 2) * 64 + 64
    rw [h1]; omega

/-! ## The array after the stage -/

/-- After all ten write-backs the output array is the combination of the stage's four input arrays. -/
theorem region5 (c : Dev nD) : (dat5 (F := Ideal) V c).arrAt 4 cfg5.N = Cert.Gcn.combine (n := 50000) (d := 64) (V c main_v108) (V c main_v95) (V c main_v111) (V c main_v112) :=
  (dat5 (F := Ideal) V c).arrAt_eq_of_cover 4 _ (fun t _ => flushed5_eq V c t) cover5

end Cert.KernelIdeal.RegionVal

end
-- ==== Proof.Region6.lean ====
/-
  The pooling head's output array, entry by entry.

  The stage runs at one grid point, and every one of its windows is its whole array as a single block. The body
  divides each graph's summed row by its node count, kept at least one (the count column repeated across the 64
  channels), multiplies the quotients by the 64 × 32 output weights and adds the bias row to every row of the
  product. Entry (p, q) is therefore the sum over k of sums (p, k) / max (counts (p, 0), 1) times w (k, q),
  plus b (0, q): the head of the four input arrays, at every entry (the format changes in between are the
  identity over the extended reals).
-/
import proofs.«114617_j28595892256902_1_alg».proof.Proof.Gen.KernelIdeal.Frame
import proofs.«114617_j28595892256902_1_alg».proof.Proof.Spec
import proofs.«114617_j28595892256902_1_alg».proof.Proof.LibDotRows
import proofs.«114617_j28595892256902_1_alg».proof.Proof.LibRowBroadcast
import proofs.«114617_j28595892256902_1_alg».proof.Proof.LibColBroadcast
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx Idealize.SL.Sem
open Idealize.ShloMosaic.TcCoe Cert.Hand

variable (V : (c : Dev nD) → (b : Ref sig .tc) → Buf (Elt Ideal) ((c : Thread nD τ).loc b))

theorem hz6 : (![0, 0] : Fin 2 → Nat) = fun _ => 0 := funext fun a => by fin_cases a <;> rfl

/-- The head's payload at an entry: the pooled row p, each sum over the node count kept at least one, times column q
    of the output weights, plus the bias at q. -/
theorem pay6_apply (x0 : Vec Ideal S512x1 .f32) (x1 : Vec Ideal S512x64 .f32) (x2 : Vec Ideal S64x32 .f32)
    (x3 : Vec Ideal S1x32 .f32) (p : Fin 512) (q : Fin 32) :
    k6_pay1 (F := Ideal) x0 x1 x2 x3 (ix2 p q)
      = (∑ k : Fin 64, Ideal.div (x1 (ix2 p k)) (max (x0 (ix2 p (0 : Fin 1))) Cert.Gcn.one) * x2 (ix2 k q))
        + x3 (ix2 (0 : Fin 1) q) := by
  unfold k6_pay1
  simp only [matmul, shapeCast_self]
  rw [addf_apply, Cert.RowBroadcast.broadcastTo_1b_ab_apply, Ideal.matmul_constant_zero_apply]
  congr 1
  dot_rows dot_S512x64_S64x32_S512x32_1_0_0_1_n_n S512x64 S64x32 64
  rw [truncf_apply, truncf_apply, divf_apply, Cert.ColBroadcast.broadcastTo_a1_ab_apply, maximumf_apply, broadcast_apply]
  rfl

/-- Every window's block index at the one grid point is the origin. -/
theorem idx_facts6 : ∀ t : Fin cfg6.N,
    (win6_0.index t (0 : Fin 2) = 0 ∧ win6_0.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0) :=
  (by decide +kernel : ∀ t : Fin grid6.N, _)

/-- The sums window's one block is the whole array of per-graph sums. -/
theorem blk6_0_apply (c : Dev nD) (t : Fin cfg6.N) (x : Fin 512) (y : Fin 64) :
    (iblk6 V c 0 t : Vec Ideal S512x64 .f32) (ix2 x y) = (V c main_v116 : S512x64.Idx → Ideal .f32) (ix2 x y) := by
  have e := idx_facts6 t
  unfold iblk6
  rw [View.read_apply]
  show V c main_v116 (((cfg6.win 0).blk t).view.emb (ix2 x y)) = V c main_v116 (ix2 x y)
  congr 1
  funext a
  apply Fin.ext
  match a with
  | ⟨0, _⟩ => show win6_0.index t (0 : Fin 2) * 512 + 1 * x.val = x.val; rw [(e.1).1]; omega
  | ⟨1, _⟩ => show win6_0.index t (1 : Fin 2) * 64 + 1 * y.val = y.val; rw [(e.1).2]; omega

/-- The counts window's one block is the whole column of node counts. -/
theorem blk6_1_apply (c : Dev nD) (t : Fin cfg6.N) (x : Fin 512) (y : Fin 1) :
    (iblk6 V c 1 t : Vec Ideal S512x1 .f32) (ix2 x y) = (V c main_v121 : S512x1.Idx → Ideal .f32) (ix2 x y) := by
  have e := idx_facts6 t
  unfold iblk6
  rw [View.read_apply]
  show V c main_v121 (((cfg6.win 1).blk t).view.emb (ix2 x y)) = V c main_v121 (ix2 x y)
  congr 1
  funext a
  apply Fin.ext
  match a with
  | ⟨0, _⟩ => show win6_1.index t (0 : Fin 2) * 512 + 1 * x.val = x.val; rw [(e.2.1).1]; omega
  | ⟨1, _⟩ => show win6_1.index t (1 : Fin 2) * 1 + 1 * y.val = y.val; rw [(e.2.1).2]; omega

/-- The weights window's one block is the whole output weight matrix. -/
theorem blk6_2_apply (c : Dev nD) (t : Fin cfg6.N) (x : Fin 64) (y : Fin 32) :
    (iblk6 V c 2 t : Vec Ideal S64x32 .f32) (ix2 x y) = (V c main_arg9 : S64x32.Idx → Ideal .f32) (ix2 x y) := by
  have e := idx_facts6 t
  unfold iblk6
  rw [View.read_apply]
  show V c main_arg9 (((cfg6.win 2).blk t).view.emb (ix2 x y)) = V c main_arg9 (ix2 x y)
  congr 1
  funext a
  apply Fin.ext
  match a with
  | ⟨0, _⟩ => show win6_2.index t (0 : Fin 2) * 64 + 1 * x.val = x.val; rw [(e.2.2.1).1]; omega
  | ⟨1, _⟩ => show win6_2.index t (1 : Fin 2) * 32 + 1 * y.val = y.val; rw [(e.2.2.1).2]; omega

/-- The bias window's one block is the whole bias row. -/
theorem blk6_3_apply (c : Dev nD) (t : Fin cfg6.N) (x : Fin 1) (y : Fin 32) :
    (iblk6 V c 3 t : Vec Ideal S1x32 .f32) (ix2 x y) = (V c main_v122 : S1x32.Idx → Ideal .f32) (ix2 x y) := by
  have e := idx_facts6 t
  unfold iblk6
  rw [View.read_apply]
  show V c main_v122 (((cfg6.win 3).blk t).view.emb (ix2 x y)) = V c main_v122 (ix2 x y)
  congr 1
  funext a
  apply Fin.ext
  match a with
  | ⟨0, _⟩ => show win6_3.index t (0 : Fin 2) * 1 + 1 * x.val = x.val; rw [(e.2.2.2.1).1]; omega
  | ⟨1, _⟩ => show win6_3.index t (1 : Fin 2) * 32 + 1 * y.val = y.val; rw [(e.2.2.2.1).2]; omega

/-- The output's one block at a block entry is the head at the entry's place in the array. -/
theorem out6_apply (c : Dev nD) (t : Fin cfg6.N) (j : S512x32.Idx) :
    k6_pay1 (F := Ideal) (iblk6 V c 1 t) (iblk6 V c 0 t) (iblk6 V c 2 t) (iblk6 V c 3 t) j
      = Cert.Gcn.head (g := 512) (d := 64) (o := 32) (V c main_v116) (V c main_v121) (V c main_arg9) (V c main_v122)
          (((cfg6.win 4).blk t).view.emb j) := by
  obtain ⟨p, q, rfl⟩ : ∃ (p : Fin 512) (q : Fin 32), j = ix2 p q := ⟨j 0, j 1, eq_ix2 j⟩
  have e := idx_facts6 t
  have he : ((cfg6.win 4).blk t).view.emb (ix2 p q) = (ix2 p q : S512x32.Idx) := by
    funext a
    apply Fin.ext
    match a with
    | ⟨0, _⟩ => show win6_4.index t (0 : Fin 2) * 512 + 1 * p.val = p.val; rw [(e.2.2.2.2).1]; omega
    | ⟨1, _⟩ => show win6_4.index t (1 : Fin 2) * 32 + 1 * q.val = q.val; rw [(e.2.2.2.2).2]; omega
  rw [he, pay6_apply]
  unfold Cert.Gcn.head
  rw [Cert.Gcn.row_ix2, Cert.Gcn.col_ix2, blk6_1_apply V c t p 0, blk6_3_apply V c t 0 q]
  congr 1
  refine Finset.sum_congr rfl fun k _ => ?_
  rw [blk6_0_apply V c t p k, blk6_2_apply V c t k q]

/-- What the one point writes back is the one block of the head of the four input arrays. -/
theorem flushed6_eq (c : Dev nD) (t : Fin cfg6.N) :
    (dat6 (F := Ideal) V c).flushed 4 t = ((cfg6.win 4).blk t).view.read (Elt Ideal)
      (Cert.Gcn.head (g := 512) (d := 64) (o := 32) (V c main_v116) (V c main_v121) (V c main_arg9) (V c main_v122)) := by
  show (cfg6.win 4).cut (grid6.coords t) ((dat6 V c).after 4 t) = _
  rw [after6_4]
  unfold out6_4
  rw [View.canon_unit_zero hz6]
  simp only [View.ld_unit_zero (S := S512x1) hz6, View.ld_unit_zero (S := S512x64) hz6, View.ld_unit_zero (S := S64x32) hz6,
    View.ld_unit_zero (S := S1x32) hz6]
  funext j
  rw [View.read_apply]
  exact out6_apply V c t j

/-- An index of the array is in point t's block iff each coordinate is in the block's range on its axis. -/
theorem mem_blk6 (t : Fin cfg6.N) (i : S512x32.Idx) :
    i ∈ ((cfg6.win 4).blk t).view.set ↔ ∀ a : Fin 2, win6_4.index t a * S512x32.size a ≤ (i a).val ∧ (i a).val < win6_4.index t a * S512x32.size a + S512x32.size a := by
  show i ∈ ((View.whole main_v123).slice (win6_4.rect t)).set ↔ _
  rw [View.set_slice_whole, Rect.mem_set_unit]
  exact Iff.rfl

/-- The one point's block is the whole array. -/
theorem cover6 (i : S512x32.Idx) : ∃ t : Fin cfg6.N, (cfg6.win 4).flush t = true ∧ i ∈ ((cfg6.win 4).blk t).view.set := by
  have hN : grid6.N = 1 := N_6
  have hi0 : (i 0).val < 512 := (i 0).isLt
  have hi1 : (i 1).val < 32 := (i 1).isLt
  have hlt : 0 < grid6.N := by omega
  have e := (idx_facts6 ⟨0, hlt⟩).2.2.2.2
  refine ⟨⟨0, hlt⟩, flush6_4 _, ?_⟩
  rw [mem_blk6]
  intro a
  match a with
  | ⟨0, _⟩ =>
    show win6_4.index ⟨0, hlt⟩ (0 : Fin 2) * 512 ≤ (i 0).val ∧ (i 0).val < win6_4.index ⟨0, hlt⟩ (0 : Fin 2) * 512 + 512
    rw [e.1]; omega
  | ⟨1, _⟩ =>
    show win6_4.index ⟨0, hlt⟩ (1 : Fin 2) * 32 ≤ (i 1).val ∧ (i 1).val < win6_4.index ⟨0, hlt⟩ (1 : Fin 2) * 32 + 32
    rw [e.2]; omega

/-- The head region's output array after its write-back: the head of its four input arrays. -/
theorem region6 (c : Dev nD) : (dat6 (F := Ideal) V c).arrAt 4 cfg6.N
    = Cert.Gcn.head (g := 512) (d := 64) (o := 32) (V c main_v116) (V c main_v121) (V c main_arg9) (V c main_v122) :=
  (dat6 (F := Ideal) V c).arrAt_eq_of_cover 4 _ (fun t _ => flushed6_eq V c t) cover6

end Cert.KernelIdeal.RegionVal

end
-- ==== Proof.Vals.lean ====
/-
  What the tiled program's result buffer holds, as the reference's own stages of the launch arrays.

  Walking the program's boundaries in order: the first stretch of host operations computes the edge endpoints, the
  edge weights and the self-loop weights exactly as the reference does; each projection region leaves the host
  product of its two operand arrays; each stretch between regions gathers, scales and scatter-adds with the same
  operations as the reference and slices the layer's parameters, handing the vectors to the next region as one-row
  and one-column arrays; each combine region leaves the reference's chain of pointwise operations; the last stretch
  pools by graph and the head region leaves the reference's quotient, product and bias. So the result buffer ends
  at the reference's last stage of the launch arrays.
-/
import proofs.«114617_j28595892256902_1_alg».proof.Proof.Gen.KernelIdeal.Frame
import proofs.«114617_j28595892256902_1_alg».proof.Proof.Gen.ReferenceIdeal.Read
import proofs.«114617_j28595892256902_1_alg».proof.Proof.Spec
import proofs.«114617_j28595892256902_1_alg».proof.Proof.Carry
import proofs.«114617_j28595892256902_1_alg».proof.Proof.RefRead
import proofs.«114617_j28595892256902_1_alg».proof.Proof.Region0
import proofs.«114617_j28595892256902_1_alg».proof.Proof.Region1
import proofs.«114617_j28595892256902_1_alg».proof.Proof.Region2
import proofs.«114617_j28595892256902_1_alg».proof.Proof.Region3
import proofs.«114617_j28595892256902_1_alg».proof.Proof.Region4
import proofs.«114617_j28595892256902_1_alg».proof.Proof.Region5
import proofs.«114617_j28595892256902_1_alg».proof.Proof.Region6
import Idealize.ShloMosaic.Lib.StableHlo.Run

set_option maxRecDepth 16384

noncomputable section

namespace Cert.KernelIdeal.Vals

open Cert.KernelIdeal Cert.KernelIdeal.Gen Cert.KernelIdeal.RegionVal Cert.Gcn
open Cert.ReferenceIdeal.Read Cert.ReferenceIdeal.RefRead
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region: the graph's normalisation and the first layer's weights -/

theorem v1_1 : W1 m ρ c (Proc.devRef .tc main_v1) = val_main_v1 (F := Ideal) (m ((c : Thread nD τ).loc main_arg1)) := by
  show StableHlo.after hostOps0 (W0 m ρ c) _ = _
  after_results_simp
  rfl
theorem v3_1 : W1 m ρ c (Proc.devRef .tc main_v3) = val_main_v3 (F := Ideal) (m ((c : Thread nD τ).loc main_arg1)) := by
  show StableHlo.after hostOps0 (W0 m ρ c) _ = _
  after_results_simp
  rfl
theorem v25_1 : W1 m ρ c (Proc.devRef .tc main_v25) = val_main_v25 (F := Ideal) (m ((c : Thread nD τ).loc main_arg1)) := by
  show StableHlo.after hostOps0 (W0 m ρ c) _ = _
  after_results_simp
  rfl
theorem v26_1 : W1 m ρ c (Proc.devRef .tc main_v26) = val_main_v26 (F := Ideal) (m ((c : Thread nD τ).loc main_arg1)) := by
  show StableHlo.after hostOps0 (W0 m ρ c) _ = _
  after_results_simp
  rfl
theorem v28_1 : W1 m ρ c (Proc.devRef .tc main_v28) = val_main_v28 (F := Ideal) (m ((c : Thread nD τ).loc main_arg3)) := by
  show StableHlo.after hostOps0 (W0 m ρ c) _ = _
  after_results_simp
  rfl

theorem v1_2 : W2 m ρ c (Proc.devRef .tc main_v1) = val_main_v1 (F := Ideal) (m ((c : Thread nD τ).loc main_arg1)) := (Carry.v1_2 m ρ c).trans (v1_1 m ρ c)
theorem v3_2 : W2 m ρ c (Proc.devRef .tc main_v3) = val_main_v3 (F := Ideal) (m ((c : Thread nD τ).loc main_arg1)) := (Carry.v3_2 m ρ c).trans (v3_1 m ρ c)
theorem v25_2 : W2 m ρ c (Proc.devRef .tc main_v25) = val_main_v25 (F := Ideal) (m ((c : Thread nD τ).loc main_arg1)) := (Carry.v25_2 m ρ c).trans (v25_1 m ρ c)
theorem v26_2 : W2 m ρ c (Proc.devRef .tc main_v26) = val_main_v26 (F := Ideal) (m ((c : Thread nD τ).loc main_arg1)) := (Carry.v26_2 m ρ c).trans (v26_1 m ρ c)
theorem v1_6 : W6 m ρ c (Proc.devRef .tc main_v1) = val_main_v1 (F := Ideal) (m ((c : Thread nD τ).loc main_arg1)) := (Carry.v1_6 m ρ c).trans (v1_2 m ρ c)
theorem v3_6 : W6 m ρ c (Proc.devRef .tc main_v3) = val_main_v3 (F := Ideal) (m ((c : Thread nD τ).loc main_arg1)) := (Carry.v3_6 m ρ c).trans (v3_2 m ρ c)
theorem v25_6 : W6 m ρ c (Proc.devRef .tc main_v25) = val_main_v25 (F := Ideal) (m ((c : Thread nD τ).loc main_arg1)) := (Carry.v25_6 m ρ c).trans (v25_2 m ρ c)
theorem v26_6 : W6 m ρ c (Proc.devRef .tc main_v26) = val_main_v26 (F := Ideal) (m ((c : Thread nD τ).loc main_arg1)) := (Carry.v26_6 m ρ c).trans (v26_2 m ρ c)
theorem v1_10 : W10 m ρ c (Proc.devRef .tc main_v1) = val_main_v1 (F := Ideal) (m ((c : Thread nD τ).loc main_arg1)) := (Carry.v1_10 m ρ c).trans (v1_6 m ρ c)
theorem v3_10 : W10 m ρ c (Proc.devRef .tc main_v3) = val_main_v3 (F := Ideal) (m ((c : Thread nD τ).loc main_arg1)) := (Carry.v3_10 m ρ c).trans (v3_6 m ρ c)
theorem v25_10 : W10 m ρ c (Proc.devRef .tc main_v25) = val_main_v25 (F := Ideal) (m ((c : Thread nD τ).loc main_arg1)) := (Carry.v25_10 m ρ c).trans (v25_6 m ρ c)
theorem v26_10 : W10 m ρ c (Proc.devRef .tc main_v26) = val_main_v26 (F := Ideal) (m ((c : Thread nD τ).loc main_arg1)) := (Carry.v26_10 m ρ c).trans (v26_6 m ρ c)

/-! ## Layer 1 -/

theorem v29_2 : W2 m ρ c (Proc.devRef .tc main_v29) = val_main_v31 (F := Ideal) (m ((c : Thread nD τ).loc main_arg0)) (m ((c : Thread nD τ).loc main_arg3)) := by
  refine (W2_arr m ρ c 2).trans ((region0 (V1 m ρ) c).trans ?_)
  rw [show V1 m ρ c main_arg0 = (m ((c : Thread nD τ).loc main_arg0)) from Carry.arg0_1 m ρ c, show V1 m ρ c main_v28 = val_main_v28 (F := Ideal) (m ((c : Thread nD τ).loc main_arg3)) from v28_1 m ρ c]
  exact (dot_eq_proj _ _).symm

theorem v42_3 : W3 m ρ c (Proc.devRef .tc main_v42) = val_main_v44 (F := Ideal) (m ((c : Thread nD τ).loc main_arg0)) (m ((c : Thread nD τ).loc main_arg1)) (m ((c : Thread nD τ).loc main_arg3)) := by
  show StableHlo.after hostOps1 (W2 m ρ c) _ = _
  after_results_simp
  rw [v29_2 m ρ c, v1_2 m ρ c, v3_2 m ρ c, v25_2 m ρ c]
  rfl
theorem v29_3 : W3 m ρ c (Proc.devRef .tc main_v29) = val_main_v31 (F := Ideal) (m ((c : Thread nD τ).loc main_arg0)) (m ((c : Thread nD τ).loc main_arg3)) := (Carry.v29_3 m ρ c).trans (v29_2 m ρ c)
theorem v53_3 : W3 m ρ c (Proc.devRef .tc main_v53) = shapeCast S50000x1 (val_main_v26 (F := Ideal) (m ((c : Thread nD τ).loc main_arg1))) shapeCasts_S50000_S50000x1 := by
  show StableHlo.after hostOps1 (W2 m ρ c) _ = _
  after_results_simp
  rw [v26_2 m ρ c]
  rfl
theorem v54_3 : W3 m ρ c (Proc.devRef .tc main_v54) = shapeCast S1x64 (val_main_v30 (F := Ideal) (m ((c : Thread nD τ).loc main_arg4))) shapeCasts_S64_S1x64 := by
  show StableHlo.after hostOps1 (W2 m ρ c) _ = _
  after_results_simp
  rw [Carry.arg4_2 m ρ c]
  rfl
theorem v55_3 : W3 m ρ c (Proc.devRef .tc main_v55) = shapeCast S1x64 (val_main_v53 (F := Ideal) (m ((c : Thread nD τ).loc main_arg5))) shapeCasts_S64_S1x64 := by
  show StableHlo.after hostOps1 (W2 m ρ c) _ = _
  after_results_simp
  rw [Carry.arg5_2 m ρ c]
  rfl
theorem v56_3 : W3 m ρ c (Proc.devRef .tc main_v56) = shapeCast S1x64 (val_main_v71 (F := Ideal) (m ((c : Thread nD τ).loc main_arg6))) shapeCasts_S64_S1x64 := by
  show StableHlo.after hostOps1 (W2 m ρ c) _ = _
  after_results_simp
  rw [Carry.arg6_2 m ρ c]
  rfl
theorem v57_3 : W3 m ρ c (Proc.devRef .tc main_v57) = shapeCast S1x64 (val_main_v55 (F := Ideal) (m ((c : Thread nD τ).loc main_arg7))) shapeCasts_S64_S1x64 := by
  show StableHlo.after hostOps1 (W2 m ρ c) _ = _
  after_results_simp
  rw [Carry.arg7_2 m ρ c]
  rfl
theorem v58_3 : W3 m ρ c (Proc.devRef .tc main_v58) = shapeCast S1x64 (val_main_v63 (F := Ideal) (m ((c : Thread nD τ).loc main_arg8))) shapeCasts_S64_S1x64 := by
  show StableHlo.after hostOps1 (W2 m ρ c) _ = _
  after_results_simp
  rw [Carry.arg8_2 m ρ c]
  rfl

theorem v59_4 : W4 m ρ c (Proc.devRef .tc main_v59) = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 8).trans ((region1 (V3 m ρ) c).trans ?_)
  rw [show V3 m ρ c main_v42 = _ from v42_3 m ρ c, show V3 m ρ c main_v29 = _ from v29_3 m ρ c,
    show V3 m ρ c main_v53 = _ from v53_3 m ρ c, show V3 m ρ c main_v54 = _ from v54_3 m ρ c,
    show V3 m ρ c main_v55 = _ from v55_3 m ρ c, show V3 m ρ c main_v56 = _ from v56_3 m ρ c,
    show V3 m ρ c main_v57 = _ from v57_3 m ρ c, show V3 m ρ c main_v58 = _ from v58_3 m ρ c]
  exact (chain_eq_bnRelu _ _ _ _ _ _ _ _ _ _).symm

/-! ## Layer 2 -/

theorem v61_5 : W5 m ρ c (Proc.devRef .tc main_v61) = val_main_v77 (F := Ideal) (m ((c : Thread nD τ).loc main_arg3)) := by
  show StableHlo.after hostOps2 (W4 m ρ c) _ = _
  after_results_simp
  rw [Carry.arg3_4 m ρ c]
  rfl
theorem v59_5 : W5 m ρ c (Proc.devRef .tc main_v59) = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (Carry.v59_5 m ρ c).trans (v59_4 m ρ c)

theorem v62_6 : W6 m ρ c (Proc.devRef .tc main_v62) = val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 2).trans ((region2 (V5 m ρ) c).trans ?_)
  rw [show V5 m ρ c main_v59 = _ from v59_5 m ρ c, show V5 m ρ c main_v61 = _ from v61_5 m ρ c]
  exact (dot_eq_proj _ _).symm

theorem v75_7 : W7 m ρ c (Proc.devRef .tc main_v75) = val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W6 m ρ c) _ = _
  after_results_simp
  rw [v62_6 m ρ c, v1_6 m ρ c, v3_6 m ρ c, v25_6 m ρ c]
  rfl
theorem v62_7 : W7 m ρ c (Proc.devRef .tc main_v62) = val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (Carry.v62_7 m ρ c).trans (v62_6 m ρ c)
theorem v86_7 : W7 m ρ c (Proc.devRef .tc main_v86) = shapeCast S50000x1 (val_main_v26 (F := Ideal) (m ((c : Thread nD τ).loc main_arg1))) shapeCasts_S50000_S50000x1 := by
  show StableHlo.after hostOps3 (W6 m ρ c) _ = _
  after_results_simp
  rw [v26_6 m ρ c]
  rfl
theorem v87_7 : W7 m ρ c (Proc.devRef .tc main_v87) = shapeCast S1x64 (val_main_v79 (F := Ideal) (m ((c : Thread nD τ).loc main_arg4))) shapeCasts_S64_S1x64 := by
  show StableHlo.after hostOps3 (W6 m ρ c) _ = _
  after_results_simp
  rw [Carry.arg4_6 m ρ c]
  rfl
theorem v88_7 : W7 m ρ c (Proc.devRef .tc main_v88) = shapeCast S1x64 (val_main_v102 (F := Ideal) (m ((c : Thread nD τ).loc main_arg5))) shapeCasts_S64_S1x64 := by
  show StableHlo.after hostOps3 (W6 m ρ c) _ = _
  after_results_simp
  rw [Carry.arg5_6 m ρ c]
  rfl
theorem v89_7 : W7 m ρ c (Proc.devRef .tc main_v89) = shapeCast S1x64 (val_main_v120 (F := Ideal) (m ((c : Thread nD τ).loc main_arg6))) shapeCasts_S64_S1x64 := by
  show StableHlo.after hostOps3 (W6 m ρ c) _ = _
  after_results_simp
  rw [Carry.arg6_6 m ρ c]
  rfl
theorem v90_7 : W7 m ρ c (Proc.devRef .tc main_v90) = shapeCast S1x64 (val_main_v104 (F := Ideal) (m ((c : Thread nD τ).loc main_arg7))) shapeCasts_S64_S1x64 := by
  show StableHlo.after hostOps3 (W6 m ρ c) _ = _
  after_results_simp
  rw [Carry.arg7_6 m ρ c]
  rfl
theorem v91_7 : W7 m ρ c (Proc.devRef .tc main_v91) = shapeCast S1x64 (val_main_v112 (F := Ideal) (m ((c : Thread nD τ).loc main_arg8))) shapeCasts_S64_S1x64 := by
  show StableHlo.after hostOps3 (W6 m ρ c) _ = _
  after_results_simp
  rw [Carry.arg8_6 m ρ c]
  rfl

theorem v92_8 : W8 m ρ c (Proc.devRef .tc main_v92) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 8).trans ((region3 (V7 m ρ) c).trans ?_)
  rw [show V7 m ρ c main_v75 = _ from v75_7 m ρ c, show V7 m ρ c main_v62 = _ from v62_7 m ρ c,
    show V7 m ρ c main_v86 = _ from v86_7 m ρ c, show V7 m ρ c main_v87 = _ from v87_7 m ρ c,
    show V7 m ρ c main_v88 = _ from v88_7 m ρ c, show V7 m ρ c main_v89 = _ from v89_7 m ρ c,
    show V7 m ρ c main_v90 = _ from v90_7 m ρ c, show V7 m ρ c main_v91 = _ from v91_7 m ρ c]
  exact (chain_eq_bnRelu _ _ _ _ _ _ _ _ _ _).symm

/-! ## Layer 3 -/

theorem v94_9 : W9 m ρ c (Proc.devRef .tc main_v94) = val_main_v126 (F := Ideal) (m ((c : Thread nD τ).loc main_arg3)) := by
  show StableHlo.after hostOps4 (W8 m ρ c) _ = _
  after_results_simp
  rw [Carry.arg3_8 m ρ c]
  rfl
theorem v92_9 : W9 m ρ c (Proc.devRef .tc main_v92) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (Carry.v92_9 m ρ c).trans (v92_8 m ρ c)

theorem v95_10 : W10 m ρ c (Proc.devRef .tc main_v95) = val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((region4 (V9 m ρ) c).trans ?_)
  rw [show V9 m ρ c main_v92 = _ from v92_9 m ρ c, show V9 m ρ c main_v94 = _ from v94_9 m ρ c]
  exact (dot_eq_proj _ _).symm

theorem v108_11 : W11 m ρ c (Proc.devRef .tc main_v108) = val_main_v142 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W10 m ρ c) _ = _
  after_results_simp
  rw [v95_10 m ρ c, v1_10 m ρ c, v3_10 m ρ c, v25_10 m ρ c]
  rfl
theorem v95_11 : W11 m ρ c (Proc.devRef .tc main_v95) = val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (Carry.v95_11 m ρ c).trans (v95_10 m ρ c)
theorem v111_11 : W11 m ρ c (Proc.devRef .tc main_v111) = shapeCast S50000x1 (val_main_v26 (F := Ideal) (m ((c : Thread nD τ).loc main_arg1))) shapeCasts_S50000_S50000x1 := by
  show StableHlo.after hostOps5 (W10 m ρ c) _ = _
  after_results_simp
  rw [v26_10 m ρ c]
  rfl
theorem v112_11 : W11 m ρ c (Proc.devRef .tc main_v112) = shapeCast S1x64 (val_main_v128 (F := Ideal) (m ((c : Thread nD τ).loc main_arg4))) shapeCasts_S64_S1x64 := by
  show StableHlo.after hostOps5 (W10 m ρ c) _ = _
  after_results_simp
  rw [Carry.arg4_10 m ρ c]
  rfl

theorem v113_12 : W12 m ρ c (Proc.devRef .tc main_v113) = val_main_v149 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 4).trans ((region5 (V11 m ρ) c).trans ?_)
  rw [show V11 m ρ c main_v108 = _ from v108_11 m ρ c, show V11 m ρ c main_v95 = _ from v95_11 m ρ c,
    show V11 m ρ c main_v111 = _ from v111_11 m ρ c, show V11 m ρ c main_v112 = _ from v112_11 m ρ c]
  exact (chain_eq_combine _ _ _ _ _ _).symm

/-! ## Pooling and the head -/

theorem v116_13 : W13 m ρ c (Proc.devRef .tc main_v116) = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W12 m ρ c) _ = _
  after_results_simp
  rw [v113_12 m ρ c, Carry.arg2_12 m ρ c]
  rfl
theorem v121_13 : W13 m ρ c (Proc.devRef .tc main_v121) = shapeCast S512x1 (val_main_v156 (F := Ideal) (m ((c : Thread nD τ).loc main_arg2))) shapeCasts_S512_S512x1 := by
  show StableHlo.after hostOps6 (W12 m ρ c) _ = _
  after_results_simp
  rw [Carry.arg2_12 m ρ c]
  rfl
theorem v122_13 : W13 m ρ c (Proc.devRef .tc main_v122) = shapeCast S1x32 (m ((c : Thread nD τ).loc main_arg10)) shapeCasts_S32_S1x32 := by
  show StableHlo.after hostOps6 (W12 m ρ c) _ = _
  after_results_simp
  rw [Carry.arg10_12 m ρ c]
  rfl

/-- The result buffer ends at the reference's last stage of the launch arrays. -/
theorem result : W14 m ρ c (Proc.devRef .tc main_v123) = val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 4).trans ((region6 (V13 m ρ) c).trans ?_)
  rw [show V13 m ρ c main_v116 = _ from v116_13 m ρ c, show V13 m ρ c main_v121 = _ from v121_13 m ρ c,
    show V13 m ρ c main_arg9 = (m ((c : Thread nD τ).loc main_arg9)) from Carry.arg9_13 m ρ c, show V13 m ρ c main_v122 = _ from v122_13 m ρ c]
  exact (chain_eq_head _ _ _ _ _ _).symm

end Cert.KernelIdeal.Vals

end
-- ==== Proof.lean ====
/-
  A three-layer graph convolution network with mean pooling and a linear head, tiled, against its plain reference.

  Both programs compute, over the extended reals, the same function of the eleven input arrays. The symmetric
  normalisation of the graph (degrees by scatter-add over the destination endpoints, their reciprocal square
  roots, the edge and self-loop weights) is done by the same host operations in both. In each layer the tiled
  program projects the node features in row blocks of 5000 — each block times the whole weight matrix, which is
  the whole product read block by block —, gathers, scales and scatter-adds along the edges with the reference's
  own operations, and combines the result with the self-loop term, the bias and, in the first two layers, the
  inference-mode batch normalisation and the positive part, again row block by row block of a pointwise formula
  whose per-channel parameters enter as one-row arrays and whose self-loop weights enter as a one-column array.
  The pooled sums and counts are scatter-adds by graph in both programs; the head divides, multiplies by the
  output weights and adds the bias in one block. A change of float format is the identity here, a tile product into
  a zero accumulator is the plain sum over the contracted axis, and no step regroups or distributes anything: the
  two sides agree for every extended-real input, so the finiteness precondition is never opened.

  The three frames are the generated ones (the reference's is its generated run with the result dropped). No
  operation was rewritten by the idealisation, so the preservation claim is trivial. For the value claim the tiled
  program's run is re-posted with its result buffer kept (RunVal), each region's output array is one function of
  its input arrays (Region0 to Region6, over Spec), the buffers later stages read again are carried across the
  boundaries (Carry), the reference's stages are the same functions (RefRead), and the boundaries are walked in
  order (Vals).
-/
import proofs.«114617_j28595892256902_1_alg».proof.Defs
import proofs.«114617_j28595892256902_1_alg».proof.Proof.Gen.Kernel
import proofs.«114617_j28595892256902_1_alg».proof.Proof.Gen.Kernel.Skeleton
import proofs.«114617_j28595892256902_1_alg».proof.Proof.Gen.Kernel.Launch
import proofs.«114617_j28595892256902_1_alg».proof.Proof.Gen.Kernel.Points
import proofs.«114617_j28595892256902_1_alg».proof.Proof.Gen.Kernel.Frame
import proofs.«114617_j28595892256902_1_alg».proof.Proof.Gen.KernelIdeal
import proofs.«114617_j28595892256902_1_alg».proof.Proof.Gen.KernelIdeal.Skeleton
import proofs.«114617_j28595892256902_1_alg».proof.Proof.Gen.KernelIdeal.Launch
import proofs.«114617_j28595892256902_1_alg».proof.Proof.Gen.KernelIdeal.Points
import proofs.«114617_j28595892256902_1_alg».proof.Proof.Gen.KernelIdeal.Frame
import proofs.«114617_j28595892256902_1_alg».proof.Proof.Gen.ReferenceIdeal
import proofs.«114617_j28595892256902_1_alg».proof.Proof.Gen.Pre_finite_inputs
import proofs.«114617_j28595892256902_1_alg».proof.Proof.Gen.ReferenceIdeal.Run
import proofs.«114617_j28595892256902_1_alg».proof.Proof.Gen.ReferenceIdeal.Read
import proofs.«114617_j28595892256902_1_alg».proof.Proof.RunVal
import proofs.«114617_j28595892256902_1_alg».proof.Proof.Vals
import Idealize.ShloMosaic.Adequacy
import Idealize.ShloMosaic.Init

noncomputable section

namespace Cert.Proof

open Idealize.ShloMosaic Idealize.ShloMosaic.TcCoe Idealize.SL.Sem

/-- The word-level tiled program runs to the end without a fault and leaves its arguments as launched. -/
theorem frame_k : Cert.frame_Kernel := fun m ρ _ => Cert.Kernel.Gen.frame m ρ
/-- So does its idealisation. -/
theorem frame_ki : Cert.frame_KernelIdeal := fun m ρ _ => Cert.KernelIdeal.Gen.frame m ρ
/-- So does the idealised reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both idealised programs end with the same result: the reference's last
    stage of the launch arrays. -/
theorem algebraic : Cert.algebraic_KernelIdeal_ReferenceIdeal := by
  intro m ρ m' ρ' _ hagree
  refine ⟨fun c => Cert.ReferenceIdeal.Read.val_main_v165 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Vals.result m ρ c), (h c).2⟩)
      (Cert.KernelIdeal.RunVal.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v165_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
